-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S5000x12544 : S_.BroadcastsInDim S5000x12544 (![] : Fin 0 → Fin S5000x12544.rank)
  reducesTo_S5000x12544_S_d0_1 : S5000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S5000x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S5000x12544 .f32 := Host.absf main_arg0
  let main_cst : FVec F S_ .f32 := constant S_ .f32 0x7F800000#32
  let main_v1 : FVec F S5000x12544 .f32 := broadcastInDim S5000x12544 ![] bcast_S_S5000x12544 main_cst
  let main_v2 : IVec S5000x12544 1 := cmpf .olt main_v0 main_v1
  let main_c : IVec S_ 1 := constantI S_ 1 1#1
  let main_v3 : IVec S_ 1 := (fun x v => Host.reduce IntOp.andi x v reducesTo_S5000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1x1024 : Shape := ⟨2, ![1, 1024]⟩
abbrev S1x4 : Shape := ⟨2, ![1, 4]⟩
abbrev S1x12 : Shape := ⟨2, ![1, 12]⟩
abbrev S5000x4 : Shape := ⟨2, ![5000, 4]⟩
abbrev S5000x12 : Shape := ⟨2, ![5000, 12]⟩
abbrev S1000x1792 : Shape := ⟨2, ![1000, 1792]⟩
abbrev S1792x1024 : Shape := ⟨2, ![1792, 1024]⟩
abbrev S1000x4 : Shape := ⟨2, ![1000, 4]⟩
abbrev S1000x12 : Shape := ⟨2, ![1000, 12]⟩
abbrev S1000x1024 : Shape := ⟨2, ![1000, 1024]⟩
abbrev S1000 : Shape := ⟨1, ![1000]⟩
abbrev S1000x1 : Shape := ⟨2, ![1000, 1]⟩

abbrev nBuf : Space → Nat
  | .hbm => 15
  | .vmem => 16
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S1x1024, .f32⟩
  | .hbm, ⟨10, _⟩ => ⟨S1x1024, .f32⟩
  | .hbm, ⟨11, _⟩ => ⟨S1x4, .f32⟩
  | .hbm, ⟨12, _⟩ => ⟨S1x12, .f32⟩
  | .hbm, ⟨13, _⟩ => ⟨S5000x4, .f32⟩
  | .hbm, ⟨14, _⟩ => ⟨S5000x12, .f32⟩
  | .local _ .vmem, ⟨0, _⟩ => ⟨S1000x1792, .f32⟩
  | .local _ .vmem, ⟨1, _⟩ => ⟨S1000x1792, .f32⟩
  | .local _ .vmem, ⟨2, _⟩ => ⟨S1792x1024, .f32⟩
  | .local _ .vmem, ⟨3, _⟩ => ⟨S1792x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x4, .f32⟩
  | .local _ .vmem, ⟨8, _⟩ => ⟨S1x4, .f32⟩
  | .local _ .vmem, ⟨9, _⟩ => ⟨S1024x12, .f32⟩
  | .local _ .vmem, ⟨10, _⟩ => ⟨S1x12, .f32⟩
  | .local _ .vmem, ⟨11, _⟩ => ⟨S1000x4, .f32⟩
  | .local _ .vmem, ⟨12, _⟩ => ⟨S1000x4, .f32⟩
  | .local _ .vmem, ⟨13, _⟩ => ⟨S1000x12, .f32⟩
  | .local _ .vmem, ⟨14, _⟩ => ⟨S1000x12, .f32⟩
  | .local _ .vmem, ⟨15, _⟩ => ⟨S1000x1024, .f32⟩
  | _, _ => ⟨S5000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![5, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1000x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S1024_S1x1024 : S1024.ShapeCasts S1x1024
  shapeCasts_S4_S1x4 : S4.ShapeCasts S1x4
  shapeCasts_S12_S1x12 : S12.ShapeCasts S1x12
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x1792_S1000x1792_0_0 : ∀ a, (![0, 0] : Fin 2 → Nat) a + S1000x1792.size a ≤ S1000x1792.size a
  h_S1000x1792 : 0 < S1000x1792.numel
  bitsLt_bf16_f32 : FTy.bits .bf16 < FTy.bits .f32
  inb_S1792x1024_S1792x1024_0_0 : ∀ a, (![0, 0] : Fin 2 → Nat) a + S1792x1024.size a ≤ S1792x1024.size a
  h_S1792x1024 : 0 < S1792x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x1024_S1024x1024_0_0 : ∀ a, (![0, 0] : Fin 2 → Nat) a + S1024x1024.size a ≤ S1024x1024.size a
  h_S1024x1024 : 0 < S1024x1024.numel
  inb_S1024x4_S1024x4_0_0 : ∀ a, (![0, 0] : Fin 2 → Nat) a + S1024x4.size a ≤ S1024x4.size a
  h_S1024x4 : 0 < S1024x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1000x4 : S1x4.Broadcasts S1000x4
  reduces_S1000x4_S1000 : S1000x4.Reduces [1] S1000
  shapeCasts_S1000_S1000x1 : S1000.ShapeCasts S1000x1
  broadcasts_S1000x1_S1000x4 : S1000x1.Broadcasts S1000x4
  inb_S1000x4_S1000x4_0_0 : ∀ a, (![0, 0] : Fin 2 → Nat) a + S1000x4.size a ≤ S1000x4.size a
  h_S1000x4 : 0 < S1000x4.numel
  inb_S1024x12_S1024x12_0_0 : ∀ a, (![0, 0] : Fin 2 → Nat) a + S1024x12.size a ≤ S1024x12.size a
  h_S1024x12 : 0 < S1024x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1000x12 : S1x12.Broadcasts S1000x12
  inb_S1000x12_S1000x12_0_0 : ∀ a, (![0, 0] : Fin 2 → Nat) a + S1000x12.size a ≤ S1000x12.size a
  h_S1000x12 : 0 < S1000x12.numel
  dot_S1000x1792_S1792x1024_S1000x1024_1_0_0_1_n_n_wf : DotDims.WF S1000x1792 S1792x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x4_S1000x4_1_0_0_1_n_n_wf : DotDims.WF S1000x1024 S1024x4 S1000x4 [1] [0] [0] [1] [] []
  dot_S1000x1024_S1024x12_S1000x12_1_0_0_1_n_n_wf : DotDims.WF S1000x1024 S1024x12 S1000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1792.size a ≤ S5000x12544.size a
  hwx0_0 : ∀ i : grid0.Coords, EltTy.bits .f32 = 32 ∨ (Rect.block (s := S5000x12544) S1000x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S12544x1024.size a
  hwx0_1 : ∀ i : grid0.Coords, EltTy.bits .f32 = 32 ∨ (Rect.block (s := S12544x1024) S1792x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .f32 = 32 ∨ (Rect.block (s := S1024x4) S1024x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x12.size a ≤ S1024x12.size a
  hwx0_7 : ∀ i : grid0.Coords, EltTy.bits .f32 = 32 ∨ (Rect.block (s := S1024x12) S1024x12.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x12.size a ≤ S1x12.size a
  hwx0_8 : ∀ i : grid0.Coords, EltTy.bits .f32 = 32 ∨ (Rect.block (s := S1x12) S1x12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x4.size a ≤ S5000x4.size a
  hwx0_9 : ∀ i : grid0.Coords, EltTy.bits .f32 = 32 ∨ (Rect.block (s := S5000x4) S1000x4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x12.size a ≤ S5000x12.size a
  hwx0_10 : ∀ i : grid0.Coords, EltTy.bits .f32 = 32 ∨ (Rect.block (s := S5000x12) S1000x12.size (cc0_transform_10 i) (hinb0_10 i)).WholeWords (EltTy.packing .f32)

variable [Facts₀]

def dot_S1000x1792_S1792x1024_S1000x1024_1_0_0_1_n_n : DotDims S1000x1792 S1792x1024 S1000x1024 where
  lhsContracting := [1]
  rhsContracting := [0]
  lhsNonContracting := [0]
  rhsNonContracting := [1]
  lhsBatch := []
  rhsBatch := []
  wf := dot_S1000x1792_S1792x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x4_S1000x4_1_0_0_1_n_n : DotDims S1000x1024 S1024x4 S1000x4 where
  lhsContracting := [1]
  rhsContracting := [0]
  lhsNonContracting := [0]
  rhsNonContracting := [1]
  lhsBatch := []
  rhsBatch := []
  wf := dot_S1000x1024_S1024x4_S1000x4_1_0_0_1_n_n_wf
def dot_S1000x1024_S1024x12_S1000x12_1_0_0_1_n_n : DotDims S1000x1024 S1024x12 S1000x12 where
  lhsContracting := [1]
  rhsContracting := [0]
  lhsNonContracting := [0]
  rhsNonContracting := [1]
  lhsBatch := []
  rhsBatch := []
  wf := dot_S1000x1024_S1024x12_S1000x12_1_0_0_1_n_n_wf

abbrev win0_0 : Pipeline.Window sig grid0 :=
  Pipeline.Window.ofSpec (Memref.whole main_arg0) S1000x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1000x4.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1000x12.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S5000x1024 : Shape := ⟨2, ![5000, 1024]⟩
abbrev S1x1024 : Shape := ⟨2, ![1, 1024]⟩
abbrev S_ : Shape := ⟨0, ![]⟩
abbrev S5000x4 : Shape := ⟨2, ![5000, 4]⟩
abbrev S1x4 : Shape := ⟨2, ![1, 4]⟩
abbrev S5000 : Shape := ⟨1, ![5000]⟩
abbrev S5000x1 : Shape := ⟨2, ![5000, 1]⟩
abbrev S5000x12 : Shape := ⟨2, ![5000, 12]⟩
abbrev S1x12 : Shape := ⟨2, ![1, 12]⟩

abbrev nBuf : Space → Nat
  | .hbm => 45
  | .vmem => 0
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S5000x1024, .f32⟩
  | .hbm, ⟨10, _⟩ => ⟨S1x1024, .f32⟩
  | .hbm, ⟨11, _⟩ => ⟨S5000x1024, .f32⟩
  | .hbm, ⟨12, _⟩ => ⟨S5000x1024, .f32⟩
  | .hbm, ⟨13, _⟩ => ⟨S_, .f32⟩
  | .hbm, ⟨14, _⟩ => ⟨S5000x1024, .f32⟩
  | .hbm, ⟨15, _⟩ => ⟨S5000x1024, .f32⟩
  | .hbm, ⟨16, _⟩ => ⟨S5000x1024, .f32⟩
  | .hbm, ⟨17, _⟩ => ⟨S1x1024, .f32⟩
  | .hbm, ⟨18, _⟩ => ⟨S5000x1024, .f32⟩
  | .hbm, ⟨19, _⟩ => ⟨S5000x1024, .f32⟩
  | .hbm, ⟨20, _⟩ => ⟨S_, .f32⟩
  | .hbm, ⟨21, _⟩ => ⟨S5000x1024, .f32⟩
  | .hbm, ⟨22, _⟩ => ⟨S5000x1024, .f32⟩
  | .hbm, ⟨23, _⟩ => ⟨S5000x4, .f32⟩
  | .hbm, ⟨24, _⟩ => ⟨S1x4, .f32⟩
  | .hbm, ⟨25, _⟩ => ⟨S5000x4, .f32⟩
  | .hbm, ⟨26, _⟩ => ⟨S5000x4, .f32⟩
  | .hbm, ⟨27, _⟩ => ⟨S_, .f32⟩
  | .hbm, ⟨28, _⟩ => ⟨S5000, .f32⟩
  | .hbm, ⟨29, _⟩ => ⟨S_, .f32⟩
  | .hbm, ⟨30, _⟩ => ⟨S5000, .f32⟩
  | .hbm, ⟨31, _⟩ => ⟨S5000, .f32⟩
  | .hbm, ⟨32, _⟩ => ⟨S5000x1, .f32⟩
  | .hbm, ⟨33, _⟩ => ⟨S5000x4, .f32⟩
  | .hbm, ⟨34, _⟩ => ⟨S5000x4, .f32⟩
  | .hbm, ⟨35, _⟩ => ⟨S5000x4, .f32⟩
  | .hbm, ⟨36, _⟩ => ⟨S_, .f32⟩
  | .hbm, ⟨37, _⟩ => ⟨S5000, .f32⟩
  | .hbm, ⟨38, _⟩ => ⟨S5000x1, .f32⟩
  | .hbm, ⟨39, _⟩ => ⟨S5000x4, .f32⟩
  | .hbm, ⟨40, _⟩ => ⟨S5000x4, .f32⟩
  | .hbm, ⟨41, _⟩ => ⟨S5000x12, .f32⟩
  | .hbm, ⟨42, _⟩ => ⟨S1x12, .f32⟩
  | .hbm, ⟨43, _⟩ => ⟨S5000x12, .f32⟩
  | .hbm, ⟨44, _⟩ => ⟨S5000x12, .f32⟩
  | _, _ => ⟨S5000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S5000x1024_0_1 : S1x1024.BroadcastsInDim S5000x1024 (![0, 1] : Fin 2 → Fin S5000x1024.rank)
  bcast_S_S5000x1024 : S_.BroadcastsInDim S5000x1024 (![] : Fin 0 → Fin S5000x1024.rank)
  bcast_S4_S1x4_1 : S4.BroadcastsInDim S1x4 (![1] : Fin 1 → Fin S1x4.rank)
  bcast_S1x4_S5000x4_0_1 : S1x4.BroadcastsInDim S5000x4 (![0, 1] : Fin 2 → Fin S5000x4.rank)
  reducesTo_S5000x4_S5000_d1 : S5000x4.ReducesTo [1] S5000
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x4_0_1 : S5000x1.BroadcastsInDim S5000x4 (![0, 1] : Fin 2 → Fin S5000x4.rank)
  bcast_S12_S1x12_1 : S12.BroadcastsInDim S1x12 (![1] : Fin 1 → Fin S1x12.rank)
  bcast_S1x12_S5000x12_0_1 : S1x12.BroadcastsInDim S5000x12 (![0, 1] : Fin 2 → Fin S5000x12.rank)
  dot_S5000x12544_S12544x1024_S5000x1024_1_0_0_1_n_n_wf : DotDims.WF S5000x12544 S12544x1024 S5000x1024 [1] [0] [0] [1] [] []
  dot_S5000x1024_S1024x1024_S5000x1024_1_0_0_1_n_n_wf : DotDims.WF S5000x1024 S1024x1024 S5000x1024 [1] [0] [0] [1] [] []
  dot_S5000x1024_S1024x4_S5000x4_1_0_0_1_n_n_wf : DotDims.WF S5000x1024 S1024x4 S5000x4 [1] [0] [0] [1] [] []
  dot_S5000x1024_S1024x12_S5000x12_1_0_0_1_n_n_wf : DotDims.WF S5000x1024 S1024x12 S5000x12 [1] [0] [0] [1] [] []

variable [Facts₀]

def dot_S5000x12544_S12544x1024_S5000x1024_1_0_0_1_n_n : DotDims S5000x12544 S12544x1024 S5000x1024 where
  lhsContracting := [1]
  rhsContracting := [0]
  lhsNonContracting := [0]
  rhsNonContracting := [1]
  lhsBatch := []
  rhsBatch := []
  wf := dot_S5000x12544_S12544x1024_S5000x1024_1_0_0_1_n_n_wf
def dot_S5000x1024_S1024x1024_S5000x1024_1_0_0_1_n_n : DotDims S5000x1024 S1024x1024 S5000x1024 where
  lhsContracting := [1]
  rhsContracting := [0]
  lhsNonContracting := [0]
  rhsNonContracting := [1]
  lhsBatch := []
  rhsBatch := []
  wf := dot_S5000x1024_S1024x1024_S5000x1024_1_0_0_1_n_n_wf
def dot_S5000x1024_S1024x4_S5000x4_1_0_0_1_n_n : DotDims S5000x1024 S1024x4 S5000x4 where
  lhsContracting := [1]
  rhsContracting := [0]
  lhsNonContracting := [0]
  rhsNonContracting := [1]
  lhsBatch := []
  rhsBatch := []
  wf := dot_S5000x1024_S1024x4_S5000x4_1_0_0_1_n_n_wf
def dot_S5000x1024_S1024x12_S5000x12_1_0_0_1_n_n : DotDims S5000x1024 S1024x12 S5000x12 where
  lhsContracting := [1]
  rhsContracting := [0]
  lhsNonContracting := [0]
  rhsNonContracting := [1]
  lhsBatch := []
  rhsBatch := []
  wf := dot_S5000x1024_S1024x12_S5000x12_1_0_0_1_n_n_wf

class Facts : Prop extends Facts₀ where

variable [Facts]
-- ==== Proof.Pieces.lean ====
/-
  What each control case of the body leaves behind, as values.

  The body runs in one of three cases. At the first step of a row block's contraction it stores the zero block into
  the accumulator, reads it back and adds the step's product; at a middle step it adds the step's product to what the
  step before left; at the last step it does the same and then, from the accumulator it has just stored, computes the
  two output blocks. Each store covers its whole buffer and each load reads a whole buffer, so what a buffer holds
  afterwards is the payload of its last store at the values the loads read.
-/
import proofs.«171640_g33277406609979_cont_8to1_b_945_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The offsets of every load and store of the body are zero. -/
theorem hz : (![0, 0] : Fin 2 → Nat) = fun _ => 0 := funext fun a => by fin_cases a <;> rfl

/-- A middle step leaves in the accumulator what the step before left plus this step's product. -/
theorem scratch_B (c : Dev nD) (i : grid0.Coords) (arg2 : Memref sig .tc .vmem S1000x1792 .f32) (harg2 : arg2.IsWhole) (arg3 : Memref sig .tc .vmem S1792x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x4 .f32) (harg7 : arg7.IsWhole) (arg8 : Memref sig .tc .vmem S1x4 .f32) (harg8 : arg8.IsWhole) (arg9 : Memref sig .tc .vmem S1024x12 .f32) (harg9 : arg9.IsWhole) (arg10 : Memref sig .tc .vmem S1x12 .f32) (harg10 : arg10.IsWhole) (arg11 : Memref sig .tc .vmem S1000x4 .f32) (harg11 : arg11.IsWhole) (arg12 : Memref sig .tc .vmem S1000x12 .f32) (harg12 : arg12.IsWhole) (arg13 : Memref sig .tc .vmem S1000x1024 .f32) (harg13 : arg13.IsWhole) (hc0 : ¬cond0_0 i) (hc1 : ¬cond0_1 i)
    (x0 : Vec F S1000x1792 .f32) (x1 : Vec F S1792x1024 .f32) (x2 : Vec F S1x1024 .f32) (x3 : Vec F S1024x1024 .f32) (x4 : Vec F S1x1024 .f32) (x5 : Vec F S1024x4 .f32) (x6 : Vec F S1x4 .f32) (x7 : Vec F S1024x12 .f32) (x8 : Vec F S1x12 .f32) (xs0 : Vec F S1000x1024 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x4) hz, View.ld_unit_zero (S := S1x4) hz, View.ld_unit_zero (S := S1024x12) hz, View.ld_unit_zero (S := S1x12) hz]

/-- The first step leaves in the accumulator the zero block plus this step's product. -/
theorem scratch_A (c : Dev nD) (i : grid0.Coords) (arg2 : Memref sig .tc .vmem S1000x1792 .f32) (harg2 : arg2.IsWhole) (arg3 : Memref sig .tc .vmem S1792x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x4 .f32) (harg7 : arg7.IsWhole) (arg8 : Memref sig .tc .vmem S1x4 .f32) (harg8 : arg8.IsWhole) (arg9 : Memref sig .tc .vmem S1024x12 .f32) (harg9 : arg9.IsWhole) (arg10 : Memref sig .tc .vmem S1x12 .f32) (harg10 : arg10.IsWhole) (arg11 : Memref sig .tc .vmem S1000x4 .f32) (harg11 : arg11.IsWhole) (arg12 : Memref sig .tc .vmem S1000x12 .f32) (harg12 : arg12.IsWhole) (arg13 : Memref sig .tc .vmem S1000x1024 .f32) (harg13 : arg13.IsWhole) (hc0 : cond0_0 i) (hc1 : ¬cond0_1 i)
    (x0 : Vec F S1000x1792 .f32) (x1 : Vec F S1792x1024 .f32) (x2 : Vec F S1x1024 .f32) (x3 : Vec F S1024x1024 .f32) (x4 : Vec F S1x1024 .f32) (x5 : Vec F S1024x4 .f32) (x6 : Vec F S1x4 .f32) (x7 : Vec F S1024x12 .f32) (x8 : Vec F S1x12 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S1000x1024) hz, View.readCov_unit_zero (S := S1000x1024) _ hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x4) hz, View.ld_unit_zero (S := S1x4) hz, View.ld_unit_zero (S := S1024x12) hz, View.ld_unit_zero (S := S1x12) hz]

/-- The last step leaves in the accumulator what the step before left plus this step's product, -/
theorem scratch_C (c : Dev nD) (i : grid0.Coords) (arg2 : Memref sig .tc .vmem S1000x1792 .f32) (harg2 : arg2.IsWhole) (arg3 : Memref sig .tc .vmem S1792x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x4 .f32) (harg7 : arg7.IsWhole) (arg8 : Memref sig .tc .vmem S1x4 .f32) (harg8 : arg8.IsWhole) (arg9 : Memref sig .tc .vmem S1024x12 .f32) (harg9 : arg9.IsWhole) (arg10 : Memref sig .tc .vmem S1x12 .f32) (harg10 : arg10.IsWhole) (arg11 : Memref sig .tc .vmem S1000x4 .f32) (harg11 : arg11.IsWhole) (arg12 : Memref sig .tc .vmem S1000x12 .f32) (harg12 : arg12.IsWhole) (arg13 : Memref sig .tc .vmem S1000x1024 .f32) (harg13 : arg13.IsWhole) (hc0 : ¬cond0_0 i) (hc1 : cond0_1 i)
    (x0 : Vec F S1000x1792 .f32) (x1 : Vec F S1792x1024 .f32) (x2 : Vec F S1x1024 .f32) (x3 : Vec F S1024x1024 .f32) (x4 : Vec F S1x1024 .f32) (x5 : Vec F S1024x4 .f32) (x6 : Vec F S1x4 .f32) (x7 : Vec F S1024x12 .f32) (x8 : Vec F S1x12 .f32) (xs0 : Vec F S1000x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x4) hz, View.ld_unit_zero (S := S1x4) hz, View.ld_unit_zero (S := S1024x12) hz, View.ld_unit_zero (S := S1x12) hz]

/-- and in the first output block the softmax head of that accumulator, -/
theorem out9_C (c : Dev nD) (i : grid0.Coords) (arg2 : Memref sig .tc .vmem S1000x1792 .f32) (harg2 : arg2.IsWhole) (arg3 : Memref sig .tc .vmem S1792x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x4 .f32) (harg7 : arg7.IsWhole) (arg8 : Memref sig .tc .vmem S1x4 .f32) (harg8 : arg8.IsWhole) (arg9 : Memref sig .tc .vmem S1024x12 .f32) (harg9 : arg9.IsWhole) (arg10 : Memref sig .tc .vmem S1x12 .f32) (harg10 : arg10.IsWhole) (arg11 : Memref sig .tc .vmem S1000x4 .f32) (harg11 : arg11.IsWhole) (arg12 : Memref sig .tc .vmem S1000x12 .f32) (harg12 : arg12.IsWhole) (arg13 : Memref sig .tc .vmem S1000x1024 .f32) (harg13 : arg13.IsWhole) (hc0 : ¬cond0_0 i) (hc1 : cond0_1 i)
    (x0 : Vec F S1000x1792 .f32) (x1 : Vec F S1792x1024 .f32) (x2 : Vec F S1x1024 .f32) (x3 : Vec F S1024x1024 .f32) (x4 : Vec F S1x1024 .f32) (x5 : Vec F S1024x4 .f32) (x6 : Vec F S1x4 .f32) (x7 : Vec F S1024x12 .f32) (x8 : Vec F S1x12 .f32) (xs0 : Vec F S1000x1024 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay5 (k0_pay2 xs0 x0 x1) x2 x3 x4 x5 x6 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz, View.readCov_unit_zero (S := S1000x1024) _ hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x4) hz, View.ld_unit_zero (S := S1x4) hz, View.ld_unit_zero (S := S1024x12) hz, View.ld_unit_zero (S := S1x12) hz]

/-- and in the second output block the regression head of that accumulator. -/
theorem out10_C (c : Dev nD) (i : grid0.Coords) (arg2 : Memref sig .tc .vmem S1000x1792 .f32) (harg2 : arg2.IsWhole) (arg3 : Memref sig .tc .vmem S1792x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x4 .f32) (harg7 : arg7.IsWhole) (arg8 : Memref sig .tc .vmem S1x4 .f32) (harg8 : arg8.IsWhole) (arg9 : Memref sig .tc .vmem S1024x12 .f32) (harg9 : arg9.IsWhole) (arg10 : Memref sig .tc .vmem S1x12 .f32) (harg10 : arg10.IsWhole) (arg11 : Memref sig .tc .vmem S1000x4 .f32) (harg11 : arg11.IsWhole) (arg12 : Memref sig .tc .vmem S1000x12 .f32) (harg12 : arg12.IsWhole) (arg13 : Memref sig .tc .vmem S1000x1024 .f32) (harg13 : arg13.IsWhole) (hc0 : ¬cond0_0 i) (hc1 : cond0_1 i)
    (x0 : Vec F S1000x1792 .f32) (x1 : Vec F S1792x1024 .f32) (x2 : Vec F S1x1024 .f32) (x3 : Vec F S1024x1024 .f32) (x4 : Vec F S1x1024 .f32) (x5 : Vec F S1024x4 .f32) (x6 : Vec F S1x4 .f32) (x7 : Vec F S1024x12 .f32) (x8 : Vec F S1x12 .f32) (xs0 : Vec F S1000x1024 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay3 (k0_pay4 (k0_pay2 xs0 x0 x1) x2 x3 x4) (k0_pay6 x7) x8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz, View.readCov_unit_zero (S := S1000x1024) _ hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x4) hz, View.ld_unit_zero (S := S1x4) hz, View.ld_unit_zero (S := S1024x12) hz, View.ld_unit_zero (S := S1x12) hz]

end Cert.KernelIdeal.Pieces

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«171640_g33277406609979_cont_8to1_b_945_3_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«171640_g33277406609979_cont_8to1_b_945_3_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibDenseSoftmax.lean ====
/-
  Dense layers and a row softmax, read at an entry on the extended reals.

  A multilayer head works row by row. A dense layer sends a row `r` to `c ↦ ∑ j, r j * W (j, c) + b c`; a softmax
  sends a row of scores `s` to `q ↦ exp (s q - M) / ∑ q', exp (s q' - M)` with `M` the maximum of the row, taken as
  the fold of `max` from `⊥`. This module names those two row functions and reads a tile body's spelling of each at
  an entry `(p, c)` of the tile: the matrix unit accumulating into zero plus a `[1, k]` bias row repeated down the
  tile, and the two lane reductions recast to a column and repeated across the tile. Every extent is generic.
-/
import Idealize.ShloMosaic.PureOps.Ideal.Laws
import Idealize.ShloMosaic.Lib.ValueIdx
import Idealize.ShloMosaic.Lib.Pipeline.Value
import proofs.«171640_g33277406609979_cont_8to1_b_945_3_alg».proof.Proof.LibDotRecord
import proofs.«171640_g33277406609979_cont_8to1_b_945_3_alg».proof.Proof.LibRowOps
import proofs.«171640_g33277406609979_cont_8to1_b_945_3_alg».proof.Proof.LibTileOps

noncomputable section

namespace DenseSoftmax

open Idealize.ShloMosaic Idealize.ShloMosaic.ValueIdx

variable {a n k : ℕ}

/-- A dense layer at output `c`: the row times column `c` of the weights, plus the bias at `c`. -/
def dense (r : Fin n → EReal) (W : (⟨2, ![n, k]⟩ : Shape).Idx → EReal) (b : Fin k → EReal) (c : Fin k) : EReal :=
  ∑ j : Fin n, r j * W (ix2 j c) + b c

/-- The maximum of a row, as the fold of `max` from `⊥`. -/
def rowMax (s : Fin k → EReal) : EReal := (Finset.univ : Finset (Fin k)).fold max ⊥ s

/-- The softmax of a row of scores at position `q`. -/
def softmaxRow (s : Fin k → EReal) (q : Fin k) : EReal :=
  Ideal.div (Ideal.exp (s q - rowMax s)) (∑ q' : Fin k, Ideal.exp (s q' - rowMax s))

/-- The matrix unit accumulating into zero plus a `[1, k]` bias row repeated down the tile, at `(p, c)`: the dense
    layer of row `p`. -/
theorem tile_dense_apply {φ₁ φ₂ : FTy} (d : DotDims ⟨2, ![a, n]⟩ ⟨2, ![n, k]⟩ ⟨2, ![a, k]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![a, n]⟩ φ₁) (W : FVec Ideal ⟨2, ![n, k]⟩ φ₂) (prec : Option ContractPrecision)
    (b : FVec Ideal ⟨2, ![1, k]⟩ .f32) (hs : (⟨2, ![1, k]⟩ : Shape).ShapeCasts ⟨2, ![1, k]⟩)
    (hb : (⟨2, ![1, k]⟩ : Shape).Broadcasts ⟨2, ![a, k]⟩) (p : Fin a) (c : Fin k) :
    addf (FloatOps.matmul d prec x W (constant ⟨2, ![a, k]⟩ .f32 0x00000000#32))
        (broadcastTo ⟨2, ![a, k]⟩ (shapeCast ⟨2, ![1, k]⟩ b hs) hb) (ix2 p c)
      = dense (fun j => x (ix2 p j)) W (fun c => b (ix2 (0 : Fin 1) c)) c := by
  show FloatOps.matmul d prec x W (constant ⟨2, ![a, k]⟩ .f32 0x00000000#32) (ix2 p c)
      + broadcastTo ⟨2, ![a, k]⟩ (shapeCast ⟨2, ![1, k]⟩ b hs) hb (ix2 p c) = _
  rw [DotRecord.matmul_zero_apply d h1 h2 h3 h4 h5 h6 x W prec p c, shapeCast_self,
    DotRecord.broadcastTo_1b_ab_apply b hb p c]
  rfl

/-- A tile minus its row maxima (the `maximumf` lane reduction recast to a column and repeated across the tile),
    exponentiated, at `(p, q)`. -/
theorem tile_shiftedExp_apply (v : FVec Ideal ⟨2, ![a, k]⟩ .f32)
    (h : Shape.Reduces ⟨2, ![a, k]⟩ [1] ⟨1, ![a]⟩) (hφ : FKind.Formats .f32)
    (hmax : (0xFF800000#32 : BitVec 32) = FKind.maximumf.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    exp (subf v (broadcastTo ⟨2, ![a, k]⟩ (shapeCast ⟨2, ![a, 1]⟩
        (multiReduction .maximumf [1] ⟨1, ![a]⟩ v 0xFF800000#32 h hφ hmax) h1) h2)) (ix2 p q)
      = Ideal.exp (v (ix2 p q) - rowMax (fun q' => v (ix2 p q'))) := by
  show Ideal.exp (v (ix2 p q) - broadcastTo ⟨2, ![a, k]⟩ (shapeCast ⟨2, ![a, 1]⟩
        (multiReduction .maximumf [1] ⟨1, ![a]⟩ v 0xFF800000#32 h hφ hmax) h1) h2 (ix2 p q)) = _
  rw [Gcn.Lib.broadcastTo_a1_ab_apply _ h2 p q, Gcn.Lib.shapeCast_a_a1_apply _ h1 p 0,
    Gcn.Lib.rowMax_apply v h hφ hmax p]
  rfl

/-- A tile divided by its row sums (the `add` lane reduction recast to a column and repeated across the tile), at
    `(p, q)`. -/
theorem tile_normalize_apply (e : FVec Ideal ⟨2, ![a, k]⟩ .f32)
    (h : Shape.Reduces ⟨2, ![a, k]⟩ [1] ⟨1, ![a]⟩) (hφ : FKind.Formats .f32)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    divf e (broadcastTo ⟨2, ![a, k]⟩ (shapeCast ⟨2, ![a, 1]⟩
        (multiReduction .add [1] ⟨1, ![a]⟩ e 0x00000000#32 h hφ hadd) h1) h2) (ix2 p q)
      = Ideal.div (e (ix2 p q)) (∑ q' : Fin k, e (ix2 p q')) := by
  show Ideal.div (e (ix2 p q)) (broadcastTo ⟨2, ![a, k]⟩ (shapeCast ⟨2, ![a, 1]⟩
        (multiReduction .add [1] ⟨1, ![a]⟩ e 0x00000000#32 h hφ hadd) h1) h2 (ix2 p q)) = _
  rw [Hmu.Lib.rowSumCol_apply e h hφ hadd h1 h2 p q]

/-- The tile body's softmax of a tile `v` of scores, at `(p, q)`: the softmax of row `p`. -/
theorem tile_softmax_apply (v : FVec Ideal ⟨2, ![a, k]⟩ .f32)
    (h : Shape.Reduces ⟨2, ![a, k]⟩ [1] ⟨1, ![a]⟩) (hφ : FKind.Formats .f32)
    (hmax : (0xFF800000#32 : BitVec 32) = FKind.maximumf.neutral .f32 hφ)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, k]⟩)
    (p : Fin a) (q : Fin k) :
    divf (exp (subf v (broadcastTo ⟨2, ![a, k]⟩ (shapeCast ⟨2, ![a, 1]⟩
          (multiReduction .maximumf [1] ⟨1, ![a]⟩ v 0xFF800000#32 h hφ hmax) h1) h2)))
        (broadcastTo ⟨2, ![a, k]⟩ (shapeCast ⟨2, ![a, 1]⟩
          (multiReduction .add [1] ⟨1, ![a]⟩
            (exp (subf v (broadcastTo ⟨2, ![a, k]⟩ (shapeCast ⟨2, ![a, 1]⟩
              (multiReduction .maximumf [1] ⟨1, ![a]⟩ v 0xFF800000#32 h hφ hmax) h1) h2)))
            0x00000000#32 h hφ hadd) h1) h2) (ix2 p q)
      = softmaxRow (fun q' => v (ix2 p q')) q := by
  refine (tile_normalize_apply _ h hφ hadd h1 h2 p q).trans ?_
  unfold softmaxRow
  rw [tile_shiftedExp_apply v h hφ hmax h1 h2 p q]
  exact congrArg _ (Finset.sum_congr rfl fun q' _ => tile_shiftedExp_apply v h hφ hmax h1 h2 p q')

end DenseSoftmax

end
-- ==== Proof.Spec.lean ====
/-
  What the box head computes, row by row, on the extended reals.

  For one row `a` of the first layer's products `x · W1` (1024 numbers): the first hidden row is the rectified
  `a + b1`; the second hidden row is the rectified dense layer of the first under `W2, b2`; the class scores are the
  dense layer of the second hidden row under `W3, b3` (4 numbers) and the class probabilities their softmax; the box
  regression is the dense layer of the second hidden row under `W4, b4` (12 numbers). Row `R` of `x · W1` is the sum
  over the 12544 features. The two result arrays are these functions of the nine argument arrays, entry by entry.
-/
import proofs.«171640_g33277406609979_cont_8to1_b_945_3_alg».proof.Proof.LibDenseSoftmax

noncomputable section

namespace BoxHead

open Idealize.ShloMosaic Idealize.ShloMosaic.ValueIdx DenseSoftmax

/-- The value of the f32 word `+0`, the rectifier's threshold. -/
abbrev zero32 : EReal := Ideal.ofBits .f32 0x00000000#32

/-- The first hidden row: the rectified sum of the products' row and the bias. -/
def hidden1 (a b1 : Fin 1024 → EReal) (j : Fin 1024) : EReal := max (a j + b1 j) zero32

/-- The second hidden row: the rectified dense layer of the first hidden row. -/
def hidden2 (a b1 : Fin 1024 → EReal) (W2 : (⟨2, ![1024, 1024]⟩ : Shape).Idx → EReal) (b2 : Fin 1024 → EReal)
    (c : Fin 1024) : EReal :=
  max (dense (hidden1 a b1) W2 b2 c) zero32

/-- The class probabilities of a row: the softmax of the dense layer of the second hidden row. -/
def classProb (a b1 : Fin 1024 → EReal) (W2 : (⟨2, ![1024, 1024]⟩ : Shape).Idx → EReal) (b2 : Fin 1024 → EReal)
    (W3 : (⟨2, ![1024, 4]⟩ : Shape).Idx → EReal) (b3 : Fin 4 → EReal) (q : Fin 4) : EReal :=
  softmaxRow (dense (hidden2 a b1 W2 b2) W3 b3) q

/-- The box regression of a row: the dense layer of the second hidden row. -/
def boxOut (a b1 : Fin 1024 → EReal) (W2 : (⟨2, ![1024, 1024]⟩ : Shape).Idx → EReal) (b2 : Fin 1024 → EReal)
    (W4 : (⟨2, ![1024, 12]⟩ : Shape).Idx → EReal) (b4 : Fin 12 → EReal) (q : Fin 12) : EReal :=
  dense (hidden2 a b1 W2 b2) W4 b4 q

/-- Row `R` of the product of the features with the first weights. -/
def firstRow (X : (⟨2, ![5000, 12544]⟩ : Shape).Idx → EReal) (W1 : (⟨2, ![12544, 1024]⟩ : Shape).Idx → EReal)
    (R : Fin 5000) (c : Fin 1024) : EReal :=
  ∑ k : Fin 12544, X (ix2 R k) * W1 (ix2 k c)

/-- The class-probability array as a function of the arguments. -/
def classArray (X : (⟨2, ![5000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (W3 : (⟨2, ![1024, 4]⟩ : Shape).Idx → EReal)
    (b3 : (⟨1, ![4]⟩ : Shape).Idx → EReal) : (⟨2, ![5000, 4]⟩ : Shape).Idx → EReal :=
  fun i => classProb (firstRow X W1 ⟨(i 0).val, idx2_lt0 i⟩) (fun c => b1 (ix1 c)) W2 (fun c => b2 (ix1 c)) W3
    (fun q => b3 (ix1 q)) ⟨(i 1).val, idx2_lt1 i⟩

/-- The box-regression array as a function of the arguments. -/
def boxArray (X : (⟨2, ![5000, 12544]⟩ : Shape).Idx → EReal) (W1 : (⟨2, ![12544, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (W4 : (⟨2, ![1024, 12]⟩ : Shape).Idx → EReal)
    (b4 : (⟨1, ![12]⟩ : Shape).Idx → EReal) : (⟨2, ![5000, 12]⟩ : Shape).Idx → EReal :=
  fun i => boxOut (firstRow X W1 ⟨(i 0).val, idx2_lt0 i⟩) (fun c => b1 (ix1 c)) W2 (fun c => b2 (ix1 c)) W4
    (fun q => b4 (ix1 q)) ⟨(i 1).val, idx2_lt1 i⟩

/-- The class-probability array at the entry `(R, q)`. -/
theorem classArray_apply (X W1 b1 W2 b2 W3 b3) (R : Fin 5000) (q : Fin 4) :
    classArray X W1 b1 W2 b2 W3 b3 (ix2 R q)
      = classProb (firstRow X W1 R) (fun c => b1 (ix1 c)) W2 (fun c => b2 (ix1 c)) W3 (fun q => b3 (ix1 q)) q := rfl

/-- The box-regression array at the entry `(R, q)`. -/
theorem boxArray_apply (X W1 b1 W2 b2 W4 b4) (R : Fin 5000) (q : Fin 12) :
    boxArray X W1 b1 W2 b2 W4 b4 (ix2 R q)
      = boxOut (firstRow X W1 R) (fun c => b1 (ix1 c)) W2 (fun c => b2 (ix1 c)) W4 (fun q => b4 (ix1 q)) q := rfl

end BoxHead

end
-- ==== Proof.Payloads.lean ====
/-
  The body's payloads read at an entry, on the extended reals.

  A change of float format is the identity, so the bf16 casts vanish. The accumulator's update at `(p, c)` is the old
  value plus the step's 1792 products of row `p` of the feature block with column `c` of the weight block. From a
  finished accumulator tile the last step computes, row by row, the box head's functions: the rectified second hidden
  row, the class probabilities and the box regression of the row.
-/
import proofs.«171640_g33277406609979_cont_8to1_b_945_3_alg».proof.Proof.Gen.KernelIdeal.Skeleton
import proofs.«171640_g33277406609979_cont_8to1_b_945_3_alg».proof.Proof.Spec

noncomputable section

namespace Cert.KernelIdeal.Payloads

open Cert.KernelIdeal Cert.KernelIdeal.Gen
open Idealize.ShloMosaic Idealize.ShloMosaic.ValueIdx DenseSoftmax BoxHead

/-- The block a row block's first step stores first is zero everywhere. -/
theorem pay1_apply (p : Fin 1000) (c : Fin 1024) : k0_pay1 (F := Ideal) (ix2 p c) = zero32 := by
  unfold k0_pay1
  rw [shapeCast_self]
  rfl

/-- One step of the contraction at `(p, c)`: what the accumulator held plus the step's products. -/
theorem pay2_apply (v3 : Vec Ideal S1000x1024 .f32) (v4 : Vec Ideal S1000x1792 .f32) (v6 : Vec Ideal S1792x1024 .f32)
    (p : Fin 1000) (c : Fin 1024) :
    k0_pay2 v3 v4 v6 (ix2 p c) = v3 (ix2 p c) + ∑ kk : Fin 1792, v4 (ix2 p kk) * v6 (ix2 kk c) := by
  unfold k0_pay2
  rw [shapeCast_self]
  exact congrArg (fun z => v3 (ix2 p c) + z)
    (DotRecord.matmul_zero_apply dot_S1000x1792_S1792x1024_S1000x1024_1_0_0_1_n_n rfl rfl rfl rfl rfl rfl
      (truncf .bf16 v4 bitsLt_bf16_f32) (truncf .bf16 v6 bitsLt_bf16_f32) none p c)

/-- The first hidden tile at `(p, j)`: the rectified sum of the accumulator and the bias row. -/
theorem hidden1_tile (v16 : Vec Ideal S1000x1024 .f32) (v17 : Vec Ideal S1x1024 .f32) (p : Fin 1000) (j : Fin 1024) :
    (truncf .bf16 (maximumf (addf v16 (broadcastTo S1000x1024 (shapeCast S1x1024 v17 shapeCasts_S1x1024_S1x1024)
        broadcasts_S1x1024_S1000x1024)) (broadcast S1000x1024 (FloatOps.ofBits .f32 0x00000000#32))) bitsLt_bf16_f32
      : FVec Ideal S1000x1024 .bf16) (ix2 p j)
      = hidden1 (fun j => v16 (ix2 p j)) (fun j => v17 (ix2 (0 : Fin 1) j)) j := by
  show max (v16 (ix2 p j) + broadcastTo S1000x1024 (shapeCast S1x1024 v17 shapeCasts_S1x1024_S1x1024)
      broadcasts_S1x1024_S1000x1024 (ix2 p j)) zero32 = _
  rw [shapeCast_self, DotRecord.broadcastTo_1b_ab_apply v17 broadcasts_S1x1024_S1000x1024 p j]
  rfl

/-- The second hidden tile at `(p, c)`: the second hidden row of row `p` of the accumulator. -/
theorem pay4_apply (v16 : Vec Ideal S1000x1024 .f32) (v17 : Vec Ideal S1x1024 .f32) (v24 : Vec Ideal S1024x1024 .f32)
    (v27 : Vec Ideal S1x1024 .f32) (p : Fin 1000) (c : Fin 1024) :
    k0_pay4 v16 v17 v24 v27 (ix2 p c)
      = hidden2 (fun j => v16 (ix2 p j)) (fun j => v17 (ix2 (0 : Fin 1) j)) v24 (fun j => v27 (ix2 (0 : Fin 1) j)) c := by
  unfold k0_pay4
  show max (addf (F := Ideal) (FloatOps.matmul dot_S1000x1024_S1024x1024_S1000x1024_1_0_0_1_n_n none
        (truncf .bf16 (maximumf (addf v16 (broadcastTo S1000x1024 (shapeCast S1x1024 v17 shapeCasts_S1x1024_S1x1024)
          broadcasts_S1x1024_S1000x1024)) (broadcast S1000x1024 (FloatOps.ofBits .f32 0x00000000#32))) bitsLt_bf16_f32)
        (truncf .bf16 v24 bitsLt_bf16_f32) (constant S1000x1024 .f32 0x00000000#32))
      (broadcastTo S1000x1024 (shapeCast S1x1024 v27 shapeCasts_S1x1024_S1x1024) broadcasts_S1x1024_S1000x1024)
      (ix2 p c)) zero32 = _
  rw [tile_dense_apply dot_S1000x1024_S1024x1024_S1000x1024_1_0_0_1_n_n rfl rfl rfl rfl rfl rfl]
  simp only [hidden1_tile]
  rfl

/-- The first output tile at `(p, q)`: the class probabilities of row `p` of the accumulator. -/
theorem pay5_apply (v16 : Vec Ideal S1000x1024 .f32) (v17 : Vec Ideal S1x1024 .f32) (v24 : Vec Ideal S1024x1024 .f32)
    (v27 : Vec Ideal S1x1024 .f32) (v34 : Vec Ideal S1024x4 .f32) (v37 : Vec Ideal S1x4 .f32) (p : Fin 1000) (q : Fin 4) :
    k0_pay5 v16 v17 v24 v27 v34 v37 (ix2 p q)
      = classProb (fun j => v16 (ix2 p j)) (fun j => v17 (ix2 (0 : Fin 1) j)) v24 (fun j => v27 (ix2 (0 : Fin 1) j))
          v34 (fun j => v37 (ix2 (0 : Fin 1) j)) q := by
  unfold k0_pay5
  refine (tile_softmax_apply _ _ _ _ _ _ _ p q).trans ?_
  unfold classProb
  refine congrArg (fun s => softmaxRow s q) (funext fun q' => ?_)
  rw [tile_dense_apply dot_S1000x1024_S1024x4_S1000x4_1_0_0_1_n_n rfl rfl rfl rfl rfl rfl]
  simp only [pay4_apply]
  rfl

/-- The second output tile at `(p, q)`, from the second hidden tile `v33`: a dense layer of its row `p`. -/
theorem pay3_apply (v33 : FVec Ideal S1000x1024 .bf16) (v52 : FVec Ideal S1024x12 .bf16) (v54 : Vec Ideal S1x12 .f32)
    (p : Fin 1000) (q : Fin 12) :
    k0_pay3 v33 v52 v54 (ix2 p q) = dense (fun j => v33 (ix2 p j)) v52 (fun j => v54 (ix2 (0 : Fin 1) j)) q := by
  unfold k0_pay3
  exact tile_dense_apply dot_S1000x1024_S1024x12_S1000x12_1_0_0_1_n_n rfl rfl rfl rfl rfl rfl v33 v52 none v54 _ _ p q

/-- The second output tile at `(p, q)`, from the accumulator: the box regression of row `p`. -/
theorem box_apply (v16 : Vec Ideal S1000x1024 .f32) (v17 : Vec Ideal S1x1024 .f32) (v24 : Vec Ideal S1024x1024 .f32)
    (v27 : Vec Ideal S1x1024 .f32) (v51 : Vec Ideal S1024x12 .f32) (v54 : Vec Ideal S1x12 .f32) (p : Fin 1000) (q : Fin 12) :
    k0_pay3 (k0_pay4 v16 v17 v24 v27) (k0_pay6 v51) v54 (ix2 p q)
      = boxOut (fun j => v16 (ix2 p j)) (fun j => v17 (ix2 (0 : Fin 1) j)) v24 (fun j => v27 (ix2 (0 : Fin 1) j))
          v51 (fun j => v54 (ix2 (0 : Fin 1) j)) q := by
  rw [pay3_apply]
  simp only [pay4_apply]
  rfl

/-! ## From a finished accumulator tile to the result arrays -/

/-- If row `p` of the accumulator tile is row `R` of the product of the features with the first weights, and the staged
    blocks are the bias rows and the weight arrays, the first output tile at `(p, q)` is the class-probability array
    at `(R, q)`. -/
theorem class_tile (X : (⟨2, ![5000, 12544]⟩ : Shape).Idx → EReal) (W1 : (⟨2, ![12544, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal) (W3 : (⟨2, ![1024, 4]⟩ : Shape).Idx → EReal) (b3 : (⟨1, ![4]⟩ : Shape).Idx → EReal)
    (acc : Vec Ideal S1000x1024 .f32) (r1 : Vec Ideal S1x1024 .f32) (w2 : Vec Ideal S1024x1024 .f32)
    (r2 : Vec Ideal S1x1024 .f32) (w3 : Vec Ideal S1024x4 .f32) (r3 : Vec Ideal S1x4 .f32)
    (R : Fin 5000) (p : Fin 1000) (q : Fin 4)
    (hacc : ∀ c, acc (ix2 p c) = firstRow X W1 R c) (h1 : ∀ j, r1 (ix2 (0 : Fin 1) j) = b1 (ix1 j)) (hw2 : w2 = W2)
    (h2 : ∀ j, r2 (ix2 (0 : Fin 1) j) = b2 (ix1 j)) (hw3 : w3 = W3) (h3 : ∀ j, r3 (ix2 (0 : Fin 1) j) = b3 (ix1 j)) :
    k0_pay5 acc r1 w2 r2 w3 r3 (ix2 p q) = classArray X W1 b1 W2 b2 W3 b3 (ix2 R q) := by
  rw [pay5_apply, classArray_apply, funext hacc, funext h1, funext h2, funext h3, hw2, hw3]

/-- Under the same hypotheses the second output tile at `(p, q)` is the box-regression array at `(R, q)`. -/
theorem box_tile (X : (⟨2, ![5000, 12544]⟩ : Shape).Idx → EReal) (W1 : (⟨2, ![12544, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal) (W4 : (⟨2, ![1024, 12]⟩ : Shape).Idx → EReal) (b4 : (⟨1, ![12]⟩ : Shape).Idx → EReal)
    (acc : Vec Ideal S1000x1024 .f32) (r1 : Vec Ideal S1x1024 .f32) (w2 : Vec Ideal S1024x1024 .f32)
    (r2 : Vec Ideal S1x1024 .f32) (w4 : Vec Ideal S1024x12 .f32) (r4 : Vec Ideal S1x12 .f32)
    (R : Fin 5000) (p : Fin 1000) (q : Fin 12)
    (hacc : ∀ c, acc (ix2 p c) = firstRow X W1 R c) (h1 : ∀ j, r1 (ix2 (0 : Fin 1) j) = b1 (ix1 j)) (hw2 : w2 = W2)
    (h2 : ∀ j, r2 (ix2 (0 : Fin 1) j) = b2 (ix1 j)) (hw4 : w4 = W4) (h4 : ∀ j, r4 (ix2 (0 : Fin 1) j) = b4 (ix1 j)) :
    k0_pay3 (k0_pay4 acc r1 w2 r2) (k0_pay6 w4) r4 (ix2 p q) = boxArray X W1 b1 W2 b2 W4 b4 (ix2 R q) := by
  rw [box_apply, boxArray_apply, funext hacc, funext h1, funext h2, funext h4, hw2, hw4]

end Cert.KernelIdeal.Payloads

end
-- ==== Proof.BlockReads.lean ====
/-
  Where each input block of the kernel sits in its array.

  The grid has 35 points: 5 row blocks of 1000 rows, each contracted in 7 consecutive steps of 1792 features. At step
  `s` of row block `i` the feature window shows rows `1000 i + p` and features `1792 s + kk`, the first weight window
  the same features' rows of the weights, and every other window its whole array: the second, third and fourth weight
  matrices as they are, the four biases as `[1, n]` rows, which is how the host recasts them before the call.
-/
import proofs.«171640_g33277406609979_cont_8to1_b_945_3_alg».proof.Proof.Gen.KernelIdeal.Value
import proofs.«171640_g33277406609979_cont_8to1_b_945_3_alg».proof.Proof.Payloads
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen DenseSoftmax BoxHead

variable (m : (ℓ : Loc nD τ sig) → Buf (Elt Ideal) ℓ) (ρ : Dev nD → PrngReg)

/-! ## The grid: 5 row blocks of 1000 rows, each contracted in 7 steps of 1792 features -/

/-- The grid has 35 points. -/
theorem hN : cfg0.N = 35 := N_0

/-- Row `p` of row block `i`. -/
def rowOf (i : Fin 5) (p : Fin 1000) : Fin 5000 := ⟨i.val * 1000 + p.val, by omega⟩

/-- Feature `kk` of step `s`. -/
def colOf (s : Fin 7) (kk : Fin 1792) : Fin 12544 := ⟨s.val * 1792 + kk.val, by omega⟩

/-- The grid point of row block `i` at step `s`: the steps of a row block are consecutive points. -/
def ptOf (i : Fin 5) (s : Fin 7) : Fin cfg0.N := ⟨7 * i.val + s.val, by rw [hN]; omega⟩

theorem ptOf_val (i : Fin 5) (s : Fin 7) : (ptOf i s).val = 7 * i.val + s.val := rfl

/-- Where each window points, decided over the grid: the feature block at (row block, step), the first weight block
    at (step, 0), the two output blocks at (row block, 0), every other window at its whole array. -/
theorem idx_x : ∀ t : Fin cfg0.N, win0_0.index t (0 : Fin 2) = t.val / 7 ∧ win0_0.index t (1 : Fin 2) = t.val % 7 :=
  (by decide +kernel : ∀ t : Fin grid0.N, _)
theorem idx_w1 : ∀ t : Fin cfg0.N, win0_1.index t (0 : Fin 2) = t.val % 7 ∧ win0_1.index t (1 : Fin 2) = 0 :=
  (by decide +kernel : ∀ t : Fin grid0.N, _)
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)
theorem idx_cls : ∀ t : Fin cfg0.N, win0_9.index t (0 : Fin 2) = t.val / 7 ∧ win0_9.index t (1 : Fin 2) = 0 :=
  (by decide +kernel : ∀ t : Fin grid0.N, _)
theorem idx_box : ∀ t : Fin cfg0.N, win0_10.index t (0 : Fin 2) = t.val / 7 ∧ win0_10.index t (1 : Fin 2) = 0 :=
  (by decide +kernel : ∀ t : Fin grid0.N, _)

/-! ## The arrays the region finds: the four bias vectors recast to rows by the host -/

theorem V_b1 (c : Dev nD) : (V m c main_v0 : S1x1024.Idx → EReal)
    = shapeCast S1x1024 (m ((c : Thread nD τ).loc main_arg2)) shapeCasts_S1024_S1x1024 := by
  dsimp only [Gen.V, Gen.hostOps0]; after_results; rfl
theorem V_b2 (c : Dev nD) : (V m c main_v1 : S1x1024.Idx → EReal)
    = shapeCast S1x1024 (m ((c : Thread nD τ).loc main_arg4)) shapeCasts_S1024_S1x1024 := by
  dsimp only [Gen.V, Gen.hostOps0]; after_results; rfl
theorem V_b3 (c : Dev nD) : (V m c main_v2 : S1x4.Idx → EReal)
    = shapeCast S1x4 (m ((c : Thread nD τ).loc main_arg6)) shapeCasts_S4_S1x4 := by
  dsimp only [Gen.V, Gen.hostOps0]; after_results; rfl
theorem V_b4 (c : Dev nD) : (V m c main_v3 : S1x12.Idx → EReal)
    = shapeCast S1x12 (m ((c : Thread nD τ).loc main_arg8)) shapeCasts_S12_S1x12 := by
  dsimp only [Gen.V, Gen.hostOps0]; after_results; rfl

/-! ## The arguments and the staged blocks, as arrays of extended reals -/

/-- Argument 0 on core `c`. -/
abbrev A0 (c : Dev nD) : (⟨2, ![5000, 12544]⟩ : Shape).Idx → EReal := m ((c : Thread nD τ).loc main_arg0)
/-- Argument 1 on core `c`. -/
abbrev A1 (c : Dev nD) : (⟨2, ![12544, 1024]⟩ : Shape).Idx → EReal := m ((c : Thread nD τ).loc main_arg1)
/-- Argument 2 on core `c`. -/
abbrev A2 (c : Dev nD) : (⟨1, ![1024]⟩ : Shape).Idx → EReal := m ((c : Thread nD τ).loc main_arg2)
/-- Argument 3 on core `c`. -/
abbrev A3 (c : Dev nD) : (⟨2, ![1024, 1024]⟩ : Shape).Idx → EReal := m ((c : Thread nD τ).loc main_arg3)
/-- Argument 4 on core `c`. -/
abbrev A4 (c : Dev nD) : (⟨1, ![1024]⟩ : Shape).Idx → EReal := m ((c : Thread nD τ).loc main_arg4)
/-- Argument 5 on core `c`. -/
abbrev A5 (c : Dev nD) : (⟨2, ![1024, 4]⟩ : Shape).Idx → EReal := m ((c : Thread nD τ).loc main_arg5)
/-- Argument 6 on core `c`. -/
abbrev A6 (c : Dev nD) : (⟨1, ![4]⟩ : Shape).Idx → EReal := m ((c : Thread nD τ).loc main_arg6)
/-- Argument 7 on core `c`. -/
abbrev A7 (c : Dev nD) : (⟨2, ![1024, 12]⟩ : Shape).Idx → EReal := m ((c : Thread nD τ).loc main_arg7)
/-- Argument 8 on core `c`. -/
abbrev A8 (c : Dev nD) : (⟨1, ![12]⟩ : Shape).Idx → EReal := m ((c : Thread nD τ).loc main_arg8)

/-- Input window 0's block at grid point `t`. -/
abbrev B0 (c : Dev nD) (t : Fin cfg0.N) : Vec Ideal S1000x1792 .f32 := iblk m c 0 t
/-- Input window 1's block at grid point `t`. -/
abbrev B1 (c : Dev nD) (t : Fin cfg0.N) : Vec Ideal S1792x1024 .f32 := iblk m c 1 t
/-- Input window 2's block at grid point `t`. -/
abbrev B2 (c : Dev nD) (t : Fin cfg0.N) : Vec Ideal S1x1024 .f32 := iblk m c 2 t
/-- Input window 3's block at grid point `t`. -/
abbrev B3 (c : Dev nD) (t : Fin cfg0.N) : Vec Ideal S1024x1024 .f32 := iblk m c 3 t
/-- Input window 4's block at grid point `t`. -/
abbrev B4 (c : Dev nD) (t : Fin cfg0.N) : Vec Ideal S1x1024 .f32 := iblk m c 4 t
/-- Input window 5's block at grid point `t`. -/
abbrev B5 (c : Dev nD) (t : Fin cfg0.N) : Vec Ideal S1024x4 .f32 := iblk m c 5 t
/-- Input window 6's block at grid point `t`. -/
abbrev B6 (c : Dev nD) (t : Fin cfg0.N) : Vec Ideal S1x4 .f32 := iblk m c 6 t
/-- Input window 7's block at grid point `t`. -/
abbrev B7 (c : Dev nD) (t : Fin cfg0.N) : Vec Ideal S1024x12 .f32 := iblk m c 7 t
/-- Input window 8's block at grid point `t`. -/
abbrev B8 (c : Dev nD) (t : Fin cfg0.N) : Vec Ideal S1x12 .f32 := iblk m c 8 t

/-! ## The input blocks -/

/-- The feature block at step `s` of row block `i` holds rows `1000 i + p`, features `1792 s + kk`. -/
theorem blk0_apply (c : Dev nD) (i : Fin 5) (s : Fin 7) (p : Fin 1000) (kk : Fin 1792) :
    B0 m c (ptOf i s) (ix2 p kk)
      = A0 m c (ix2 (rowOf i p) (colOf s kk)) := by
  unfold B0 iblk
  rw [View.read_apply]
  show V m c main_arg0 _ = m ((c : Thread nD τ).loc main_arg0) _
  rw [V_main_arg0]
  refine congrArg _ (funext fun a => Fin.ext ?_)
  have h := idx_x (ptOf i s)
  rw [ptOf_val] at h
  match a with
  | ⟨0, _⟩ => show win0_0.index (ptOf i s) (0 : Fin 2) * 1000 + 1 * p.val = i.val * 1000 + p.val; rw [h.1]; omega
  | ⟨1, _⟩ => show win0_0.index (ptOf i s) (1 : Fin 2) * 1792 + 1 * kk.val = s.val * 1792 + kk.val; rw [h.2]; omega

/-- The first weight block at step `s` holds features `1792 s + kk`, every column. -/
theorem blk1_apply (c : Dev nD) (i : Fin 5) (s : Fin 7) (kk : Fin 1792) (cc : Fin 1024) :
    B1 m c (ptOf i s) (ix2 kk cc)
      = A1 m c (ix2 (colOf s kk) cc) := by
  unfold B1 iblk
  rw [View.read_apply]
  show V m c main_arg1 _ = m ((c : Thread nD τ).loc main_arg1) _
  rw [V_main_arg1]
  refine congrArg _ (funext fun a => Fin.ext ?_)
  have h := idx_w1 (ptOf i s)
  rw [ptOf_val] at h
  match a with
  | ⟨0, _⟩ => show win0_1.index (ptOf i s) (0 : Fin 2) * 1792 + 1 * kk.val = s.val * 1792 + kk.val; rw [h.1]; omega
  | ⟨1, _⟩ => show win0_1.index (ptOf i s) (1 : Fin 2) * 1024 + 1 * cc.val = cc.val; rw [h.2]; omega

theorem blk2_apply (c : Dev nD) (t : Fin cfg0.N) (j : Fin 1024) :
    B2 m c t (ix2 (0 : Fin 1) j) = A2 m c (ix1 j) := by
  unfold B2 iblk
  rw [View.read_apply]
  show V m c main_v0 _ = _
  rw [V_b1]
  refine Eq.trans (congrArg _ (funext fun a => Fin.ext ?_)) (shapeCast_a_1a_apply _ shapeCasts_S1024_S1x1024 (0 : Fin 1) j)
  have h := (idx_whole t).1
  match a with
  | ⟨0, _⟩ => show win0_2.index t (0 : Fin 2) * 1 + 1 * 0 = 0; rw [h.1]
  | ⟨1, _⟩ => show win0_2.index t (1 : Fin 2) * 1024 + 1 * j.val = j.val; rw [h.2]; omega

theorem blk3_eq (c : Dev nD) (t : Fin cfg0.N) : B3 m c t = A3 m c := by
  funext y
  unfold B3 iblk
  rw [View.read_apply]
  show V m c main_arg3 _ = m ((c : Thread nD τ).loc main_arg3) _
  rw [V_main_arg3]
  refine congrArg _ (funext fun a => Fin.ext ?_)
  have h := (idx_whole t).2.1
  match a with
  | ⟨0, _⟩ => show win0_3.index t (0 : Fin 2) * 1024 + 1 * (y 0).val = (y 0).val; rw [h.1]; omega
  | ⟨1, _⟩ => show win0_3.index t (1 : Fin 2) * 1024 + 1 * (y 1).val = (y 1).val; rw [h.2]; omega

theorem blk4_apply (c : Dev nD) (t : Fin cfg0.N) (j : Fin 1024) :
    B4 m c t (ix2 (0 : Fin 1) j) = A4 m c (ix1 j) := by
  unfold B4 iblk
  rw [View.read_apply]
  show V m c main_v1 _ = _
  rw [V_b2]
  refine Eq.trans (congrArg _ (funext fun a => Fin.ext ?_)) (shapeCast_a_1a_apply _ shapeCasts_S1024_S1x1024 (0 : Fin 1) j)
  have h := (idx_whole t).2.2.1
  match a with
  | ⟨0, _⟩ => show win0_4.index t (0 : Fin 2) * 1 + 1 * 0 = 0; rw [h.1]
  | ⟨1, _⟩ => show win0_4.index t (1 : Fin 2) * 1024 + 1 * j.val = j.val; rw [h.2]; omega

theorem blk5_eq (c : Dev nD) (t : Fin cfg0.N) : B5 m c t = A5 m c := by
  funext y
  unfold B5 iblk
  rw [View.read_apply]
  show V m c main_arg5 _ = m ((c : Thread nD τ).loc main_arg5) _
  rw [V_main_arg5]
  refine congrArg _ (funext fun a => Fin.ext ?_)
  have h := (idx_whole t).2.2.2.1
  match a with
  | ⟨0, _⟩ => show win0_5.index t (0 : Fin 2) * 1024 + 1 * (y 0).val = (y 0).val; rw [h.1]; omega
  | ⟨1, _⟩ => show win0_5.index t (1 : Fin 2) * 4 + 1 * (y 1).val = (y 1).val; rw [h.2]; omega

theorem blk6_apply (c : Dev nD) (t : Fin cfg0.N) (j : Fin 4) :
    B6 m c t (ix2 (0 : Fin 1) j) = A6 m c (ix1 j) := by
  unfold B6 iblk
  rw [View.read_apply]
  show V m c main_v2 _ = _
  rw [V_b3]
  refine Eq.trans (congrArg _ (funext fun a => Fin.ext ?_)) (shapeCast_a_1a_apply _ shapeCasts_S4_S1x4 (0 : Fin 1) j)
  have h := (idx_whole t).2.2.2.2.1
  match a with
  | ⟨0, _⟩ => show win0_6.index t (0 : Fin 2) * 1 + 1 * 0 = 0; rw [h.1]
  | ⟨1, _⟩ => show win0_6.index t (1 : Fin 2) * 4 + 1 * j.val = j.val; rw [h.2]; omega

theorem blk7_eq (c : Dev nD) (t : Fin cfg0.N) : B7 m c t = A7 m c := by
  funext y
  unfold B7 iblk
  rw [View.read_apply]
  show V m c main_arg7 _ = m ((c : Thread nD τ).loc main_arg7) _
  rw [V_main_arg7]
  refine congrArg _ (funext fun a => Fin.ext ?_)
  have h := (idx_whole t).2.2.2.2.2.1
  match a with
  | ⟨0, _⟩ => show win0_7.index t (0 : Fin 2) * 1024 + 1 * (y 0).val = (y 0).val; rw [h.1]; omega
  | ⟨1, _⟩ => show win0_7.index t (1 : Fin 2) * 12 + 1 * (y 1).val = (y 1).val; rw [h.2]; omega

theorem blk8_apply (c : Dev nD) (t : Fin cfg0.N) (j : Fin 12) :
    B8 m c t (ix2 (0 : Fin 1) j) = A8 m c (ix1 j) := by
  unfold B8 iblk
  rw [View.read_apply]
  show V m c main_v3 _ = _
  rw [V_b4]
  refine Eq.trans (congrArg _ (funext fun a => Fin.ext ?_)) (shapeCast_a_1a_apply _ shapeCasts_S12_S1x12 (0 : Fin 1) j)
  have h := (idx_whole t).2.2.2.2.2.2
  match a with
  | ⟨0, _⟩ => show win0_8.index t (0 : Fin 2) * 1 + 1 * 0 = 0; rw [h.1]
  | ⟨1, _⟩ => show win0_8.index t (1 : Fin 2) * 12 + 1 * j.val = j.val; rw [h.2]; omega

end Cert.KernelIdeal.Blocks

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.Blocks.lean ====
/-
  From blocks to arrays: the kernel's two results as functions of its arguments.

  The accumulator is reset at a row block's first step and grows by one step's products at each step, so after the
  last of the seven steps its row `p` is row `1000 i + p` of the whole product of the features with the first
  weights: a sum of seven sums of 1792 products is the sum of all 12544 — in any commutative monoid, so no finiteness
  is needed. From that accumulator the last step writes the row block of the class-probability and box-regression
  arrays, and the five last steps' blocks cover each result.
-/
import proofs.«171640_g33277406609979_cont_8to1_b_945_3_alg».proof.Proof.Gen.KernelIdeal.Value
import proofs.«171640_g33277406609979_cont_8to1_b_945_3_alg».proof.Proof.Pieces
import proofs.«171640_g33277406609979_cont_8to1_b_945_3_alg».proof.Proof.Payloads
import proofs.«171640_g33277406609979_cont_8to1_b_945_3_alg».proof.Proof.BlockReads
import proofs.«171640_g33277406609979_cont_8to1_b_945_3_alg».proof.Proof.LibGroupedSum
import proofs.«171640_g33277406609979_cont_8to1_b_945_3_alg».proof.Proof.LibRunningSum

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen DenseSoftmax BoxHead

variable (m : (ℓ : Loc nD τ sig) → Buf (Elt Ideal) ℓ) (ρ : Dev nD → PrngReg)

/-! ## The accumulator, step by step -/

theorem outsAt0_congr (c : Dev nD) (n n' : ℕ) (e : n = n') (h : n < cfg0.N) (h' : n' < cfg0.N) :
    outsAt0 m c n h = outsAt0 m c n' h' := by subst e; rfl

/-- After a row block's first step the accumulator holds the zero block plus the step's product. -/
theorem acc_first (c : Dev nD) (t : Fin cfg0.N) (h0 : t.val % 7 = 0) :
    (outsAt0 m c t.val t.isLt).2.2 = k0_pay2 (F := Ideal) (k0_pay1 (F := Ideal)) (B0 m c t) (B1 m c t) := by
  have h1 : ¬t.val % 7 = 6 := by omega
  rw [outsAt0_A m c t h0 h1]
  dsimp only
  exact Pieces.scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

/-- After any later step it holds what the step before left plus the step's product. -/
theorem acc_next (c : Dev nD) (t : Fin cfg0.N) (h0 : ¬t.val % 7 = 0) :
    (outsAt0 m c t.val t.isLt).2.2 = k0_pay2 (F := Ideal) (outsAt0 m c (t.val - 1) (Nat.lt_of_le_of_lt (Nat.sub_le _ _) t.isLt)).2.2 (B0 m c t) (B1 m c t) := by
  by_cases h1 : t.val % 7 = 6
  · rw [outsAt0_C m c t h0 h1]
    dsimp only
    exact Pieces.scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2
  · rw [outsAt0_B m c t h0 h1]
    dsimp only
    exact Pieces.scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2

/-- At a row block's last step the first output block is the softmax head of the accumulator the step leaves, -/
theorem cls_last (c : Dev nD) (t : Fin cfg0.N) (h1 : t.val % 7 = 6) :
    (outsAt0 m c t.val t.isLt).1
      = k0_pay5 (F := Ideal) (outsAt0 m c t.val t.isLt).2.2 (B2 m c t) (B3 m c t) (B4 m c t) (B5 m c t) (B6 m c t) := by
  have h0 : ¬t.val % 7 = 0 := by omega
  rw [outsAt0_C m c t h0 h1]
  dsimp only
  exact (Pieces.out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).trans
    (congrArg (fun a => k0_pay5 a (iblk m c 2 t) (iblk m c 3 t) (iblk m c 4 t) (iblk m c 5 t) (iblk m c 6 t))
      (Pieces.scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).symm)

/-- and the second output block its regression head. -/
theorem box_last (c : Dev nD) (t : Fin cfg0.N) (h1 : t.val % 7 = 6) :
    (outsAt0 m c t.val t.isLt).2.1
      = k0_pay3 (F := Ideal) (k0_pay4 (outsAt0 m c t.val t.isLt).2.2 (B2 m c t) (B3 m c t) (B4 m c t)) (k0_pay6 (B7 m c t)) (B8 m c t) := by
  have h0 : ¬t.val % 7 = 0 := by omega
  rw [outsAt0_C m c t h0 h1]
  dsimp only
  exact (Pieces.out10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).trans
    (congrArg (fun a => k0_pay3 (k0_pay4 a (iblk m c 2 t) (iblk m c 3 t) (iblk m c 4 t)) (k0_pay6 (iblk m c 7 t)) (iblk m c 8 t))
      (Pieces.scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2).symm)

/-! ## The accumulator's closed form: seven blocks of 1792 products are the whole contraction -/

/-- The products step `s` contributes to row `p` of row block `i`, column `cc`. -/
def stepTerm (X : (⟨2, ![5000, 12544]⟩ : Shape).Idx → EReal) (W1 : (⟨2, ![12544, 1024]⟩ : Shape).Idx → EReal)
    (i : Fin 5) (p : Fin 1000) (cc : Fin 1024) (s : Fin 7) : EReal :=
  ∑ kk : Fin 1792, X (ix2 (rowOf i p) (colOf s kk)) * W1 (ix2 (colOf s kk) cc)

/-- One step's product at `(p, cc)` is that term. -/
theorem step_products (c : Dev nD) (i : Fin 5) (s : Fin 7) (p : Fin 1000) (cc : Fin 1024) :
    ∑ kk : Fin 1792, B0 m c (ptOf i s) (ix2 p kk)
        * B1 m c (ptOf i s) (ix2 kk cc)
      = stepTerm (A0 m c) (A1 m c) i p cc s :=
  Finset.sum_congr rfl fun kk _ => congrArg₂ (· * ·) (blk0_apply m c i s p kk) (blk1_apply m c i s kk cc)

theorem acc_entry_first (c : Dev nD) (i : Fin 5) (p : Fin 1000) (cc : Fin 1024) (h : 0 < 7) :
    (outsAt0 m c (ptOf i ⟨0, h⟩).val (ptOf i ⟨0, h⟩).isLt).2.2 (ix2 p cc)
      = stepTerm (A0 m c) (A1 m c) i p cc ⟨0, h⟩ := by
  rw [acc_first m c (ptOf i ⟨0, h⟩) (by show (7 * i.val + 0) % 7 = 0; omega)]
  refine (Payloads.pay2_apply (k0_pay1 (F := Ideal)) (B0 m c (ptOf i ⟨0, h⟩)) (B1 m c (ptOf i ⟨0, h⟩)) p cc).trans ?_
  rw [Payloads.pay1_apply]
  show Ideal.ofBits .f32 0x00000000#32 + _ = _
  rw [Ideal.ofBits_zero_f32, zero_add]
  exact step_products m c i ⟨0, h⟩ p cc

theorem acc_entry_next (c : Dev nD) (i : Fin 5) (p : Fin 1000) (cc : Fin 1024) (s : ℕ) (hs : s + 1 < 7) :
    (outsAt0 m c (ptOf i ⟨s + 1, hs⟩).val (ptOf i ⟨s + 1, hs⟩).isLt).2.2 (ix2 p cc)
      = (outsAt0 m c (ptOf i ⟨s, Nat.lt_of_succ_lt hs⟩).val (ptOf i ⟨s, Nat.lt_of_succ_lt hs⟩).isLt).2.2 (ix2 p cc)
        + stepTerm (A0 m c) (A1 m c) i p cc ⟨s + 1, hs⟩ := by
  rw [acc_next m c (ptOf i ⟨s + 1, hs⟩) (by show ¬(7 * i.val + (s + 1)) % 7 = 0; omega)]
  refine (Payloads.pay2_apply (outsAt0 m c ((ptOf i ⟨s + 1, hs⟩).val - 1) (Nat.lt_of_le_of_lt (Nat.sub_le _ _) (ptOf i ⟨s + 1, hs⟩).isLt)).2.2 (B0 m c (ptOf i ⟨s + 1, hs⟩)) (B1 m c (ptOf i ⟨s + 1, hs⟩)) p cc).trans ?_
  refine congrArg₂ (· + ·) ?_ (step_products m c i ⟨s + 1, hs⟩ p cc)
  exact congrArg (fun v : Vec Ideal S1000x4 .f32 × Vec Ideal S1000x12 .f32 × Vec Ideal S1000x1024 .f32 => v.2.2 (ix2 p cc))
    (outsAt0_congr m c _ _ (by show 7 * i.val + (s + 1) - 1 = 7 * i.val + s; omega) _ _)

/-- After a row block's last step, row `p` of the accumulator is row `1000 i + p` of the product of the features
    with the first weights: the seven steps' blocks of products, in any grouping, are the whole contraction. -/
theorem acc_last_entry (c : Dev nD) (i : Fin 5) (p : Fin 1000) (cc : Fin 1024) :
    (outsAt0 m c (ptOf i 6).val (ptOf i 6).isLt).2.2 (ix2 p cc)
      = firstRow (A0 m c) (A1 m c) (rowOf i p) cc := by
  refine (RunningSum.last_eq (N := 7) (stepTerm (A0 m c) (A1 m c) i p cc)
    (fun s hs => (outsAt0 m c (ptOf i ⟨s, hs⟩).val (ptOf i ⟨s, hs⟩).isLt).2.2 (ix2 p cc))
    (fun h => acc_entry_first m c i p cc h) (fun s hs => acc_entry_next m c i p cc s hs) 6 (by omega) rfl).trans ?_
  unfold firstRow stepTerm
  exact (GroupedSum.sum_groups (J := 7) (B := 1792) (K := 12544) rfl
    (fun k => (A0 m c) (ix2 (rowOf i p) k) * (A1 m c) (ix2 k cc))).symm

/-! ## The output blocks, the covers, and the final arrays -/

/-- The block a row block's last step writes back to result 0 is that row block of the class-probability array. -/
theorem flushed9_eq (c : Dev nD) (t : Fin cfg0.N) (hf : (cfg0.win 9).flush t = true) :
    (dats m 0 c).flushed 9 t = ((cfg0.win 9).blk t).view.read (Elt Ideal) (classArray (A0 m c) (A1 m c) (A2 m c) (A3 m c) (A4 m c) (A5 m c) (A6 m c)) := by
  have h6 : t.val % 7 = 6 := (flush0_9 t).mp hf
  obtain ⟨i, rfl⟩ : ∃ i : Fin 5, t = ptOf i 6 :=
    ⟨⟨t.val / 7, by have hlt : t.val < 35 := lt_of_lt_of_eq t.isLt hN; omega⟩, Fin.ext (by show t.val = 7 * (t.val / 7) + 6; omega)⟩
  rw [Value.flushed9, cls_last m c (ptOf i 6) h6]
  refine funext fun (y : S1000x4.Idx) => ?_
  obtain ⟨p, q, rfl⟩ : ∃ (p : Fin 1000) (q : Fin 4), y = ix2 p q := ⟨y 0, y 1, eq_ix2 y⟩
  rw [View.read_apply]
  have hemb : ((cfg0.win 9).blk (ptOf i 6)).view.emb (ix2 p q) = ix2 (rowOf i p) q := by
    funext a; apply Fin.ext
    have h := idx_cls (ptOf i 6)
    rw [ptOf_val] at h
    match a with
    | ⟨0, _⟩ => show win0_9.index (ptOf i 6) (0 : Fin 2) * 1000 + 1 * p.val = i.val * 1000 + p.val; rw [h.1]; omega
    | ⟨1, _⟩ => show win0_9.index (ptOf i 6) (1 : Fin 2) * 4 + 1 * q.val = q.val; rw [h.2]; omega
  show _ = (classArray (A0 m c) (A1 m c) (A2 m c) (A3 m c) (A4 m c) (A5 m c) (A6 m c)) (((cfg0.win 9).blk (ptOf i 6)).view.emb (ix2 p q))
  rw [hemb]
  exact Payloads.class_tile (A0 m c) (A1 m c) (A2 m c) (A3 m c) (A4 m c) (A5 m c) (A6 m c)
    (outsAt0 m c (ptOf i 6).val (ptOf i 6).isLt).2.2 (B2 m c (ptOf i 6)) (B3 m c (ptOf i 6)) (B4 m c (ptOf i 6)) (B5 m c (ptOf i 6)) (B6 m c (ptOf i 6)) (rowOf i p) p q
    (fun cc => acc_last_entry m c i p cc) (fun j => blk2_apply m c (ptOf i 6) j) (blk3_eq m c (ptOf i 6)) (fun j => blk4_apply m c (ptOf i 6) j) (blk5_eq m c (ptOf i 6)) (fun j => blk6_apply m c (ptOf i 6) j)

/-- Every entry of result 0 lies in the block of its row block's last step. -/
theorem cover9 (j : S5000x4.Idx) :
    ∃ t : Fin cfg0.N, (cfg0.win 9).flush t = true ∧ j ∈ ((cfg0.win 9).blk t).view.set := by
  have hj0 : (j 0).val < 5000 := (j 0).isLt
  have hj1 : (j 1).val < 4 := (j 1).isLt
  refine ⟨ptOf ⟨(j 0).val / 1000, by omega⟩ 6, (flush0_9 _).mpr (by show (7 * ((j 0).val / 1000) + 6) % 7 = 6; omega), ?_⟩
  show _ ∈ ((View.whole main_v4_0).slice (win0_9.rect (ptOf ⟨(j 0).val / 1000, by omega⟩ 6))).set
  rw [View.set_slice_whole, Rect.mem_set_unit]
  have h := idx_cls (ptOf ⟨(j 0).val / 1000, by omega⟩ 6)
  rw [ptOf_val] at h
  intro a
  match a with
  | ⟨0, _⟩ =>
    show win0_9.index (ptOf ⟨(j 0).val / 1000, by omega⟩ 6) (0 : Fin 2) * 1000 ≤ (j 0).val
      ∧ (j 0).val < win0_9.index (ptOf ⟨(j 0).val / 1000, by omega⟩ 6) (0 : Fin 2) * 1000 + 1000
    rw [h.1]; show (7 * ((j 0).val / 1000) + 6) / 7 * 1000 ≤ (j 0).val ∧ (j 0).val < (7 * ((j 0).val / 1000) + 6) / 7 * 1000 + 1000; omega
  | ⟨1, _⟩ =>
    show win0_9.index (ptOf ⟨(j 0).val / 1000, by omega⟩ 6) (1 : Fin 2) * 4 ≤ (j 1).val
      ∧ (j 1).val < win0_9.index (ptOf ⟨(j 0).val / 1000, by omega⟩ 6) (1 : Fin 2) * 4 + 4
    rw [h.2]; omega

/-- So result 0 ends as the class-probability array of the arguments. -/
theorem final9 (c : Dev nD) : (dats m 0 c).arrAt 9 cfg0.N = (classArray (A0 m c) (A1 m c) (A2 m c) (A3 m c) (A4 m c) (A5 m c) (A6 m c)) :=
  (dats m 0 c).arrAt_eq_of_cover 9 (classArray (A0 m c) (A1 m c) (A2 m c) (A3 m c) (A4 m c) (A5 m c) (A6 m c)) (fun t hf => flushed9_eq m c t hf) (fun j => cover9 j)

/-- The block a row block's last step writes back to result 1 is that row block of the box-regression array. -/
theorem flushed10_eq (c : Dev nD) (t : Fin cfg0.N) (hf : (cfg0.win 10).flush t = true) :
    (dats m 0 c).flushed 10 t = ((cfg0.win 10).blk t).view.read (Elt Ideal) (boxArray (A0 m c) (A1 m c) (A2 m c) (A3 m c) (A4 m c) (A7 m c) (A8 m c)) := by
  have h6 : t.val % 7 = 6 := (flush0_10 t).mp hf
  obtain ⟨i, rfl⟩ : ∃ i : Fin 5, t = ptOf i 6 :=
    ⟨⟨t.val / 7, by have hlt : t.val < 35 := lt_of_lt_of_eq t.isLt hN; omega⟩, Fin.ext (by show t.val = 7 * (t.val / 7) + 6; omega)⟩
  rw [Value.flushed10, box_last m c (ptOf i 6) h6]
  refine funext fun (y : S1000x12.Idx) => ?_
  obtain ⟨p, q, rfl⟩ : ∃ (p : Fin 1000) (q : Fin 12), y = ix2 p q := ⟨y 0, y 1, eq_ix2 y⟩
  rw [View.read_apply]
  have hemb : ((cfg0.win 10).blk (ptOf i 6)).view.emb (ix2 p q) = ix2 (rowOf i p) q := by
    funext a; apply Fin.ext
    have h := idx_box (ptOf i 6)
    rw [ptOf_val] at h
    match a with
    | ⟨0, _⟩ => show win0_10.index (ptOf i 6) (0 : Fin 2) * 1000 + 1 * p.val = i.val * 1000 + p.val; rw [h.1]; omega
    | ⟨1, _⟩ => show win0_10.index (ptOf i 6) (1 : Fin 2) * 12 + 1 * q.val = q.val; rw [h.2]; omega
  show _ = (boxArray (A0 m c) (A1 m c) (A2 m c) (A3 m c) (A4 m c) (A7 m c) (A8 m c)) (((cfg0.win 10).blk (ptOf i 6)).view.emb (ix2 p q))
  rw [hemb]
  exact Payloads.box_tile (A0 m c) (A1 m c) (A2 m c) (A3 m c) (A4 m c) (A7 m c) (A8 m c)
    (outsAt0 m c (ptOf i 6).val (ptOf i 6).isLt).2.2 (B2 m c (ptOf i 6)) (B3 m c (ptOf i 6)) (B4 m c (ptOf i 6)) (B7 m c (ptOf i 6)) (B8 m c (ptOf i 6)) (rowOf i p) p q
    (fun cc => acc_last_entry m c i p cc) (fun j => blk2_apply m c (ptOf i 6) j) (blk3_eq m c (ptOf i 6)) (fun j => blk4_apply m c (ptOf i 6) j) (blk7_eq m c (ptOf i 6)) (fun j => blk8_apply m c (ptOf i 6) j)

/-- Every entry of result 1 lies in the block of its row block's last step. -/
theorem cover10 (j : S5000x12.Idx) :
    ∃ t : Fin cfg0.N, (cfg0.win 10).flush t = true ∧ j ∈ ((cfg0.win 10).blk t).view.set := by
  have hj0 : (j 0).val < 5000 := (j 0).isLt
  have hj1 : (j 1).val < 12 := (j 1).isLt
  refine ⟨ptOf ⟨(j 0).val / 1000, by omega⟩ 6, (flush0_10 _).mpr (by show (7 * ((j 0).val / 1000) + 6) % 7 = 6; omega), ?_⟩
  show _ ∈ ((View.whole main_v4_1).slice (win0_10.rect (ptOf ⟨(j 0).val / 1000, by omega⟩ 6))).set
  rw [View.set_slice_whole, Rect.mem_set_unit]
  have h := idx_box (ptOf ⟨(j 0).val / 1000, by omega⟩ 6)
  rw [ptOf_val] at h
  intro a
  match a with
  | ⟨0, _⟩ =>
    show win0_10.index (ptOf ⟨(j 0).val / 1000, by omega⟩ 6) (0 : Fin 2) * 1000 ≤ (j 0).val
      ∧ (j 0).val < win0_10.index (ptOf ⟨(j 0).val / 1000, by omega⟩ 6) (0 : Fin 2) * 1000 + 1000
    rw [h.1]; show (7 * ((j 0).val / 1000) + 6) / 7 * 1000 ≤ (j 0).val ∧ (j 0).val < (7 * ((j 0).val / 1000) + 6) / 7 * 1000 + 1000; omega
  | ⟨1, _⟩ =>
    show win0_10.index (ptOf ⟨(j 0).val / 1000, by omega⟩ 6) (1 : Fin 2) * 12 ≤ (j 1).val
      ∧ (j 1).val < win0_10.index (ptOf ⟨(j 0).val / 1000, by omega⟩ 6) (1 : Fin 2) * 12 + 12
    rw [h.2]; omega

/-- So result 1 ends as the box-regression array of the arguments. -/
theorem final10 (c : Dev nD) : (dats m 0 c).arrAt 10 cfg0.N = (boxArray (A0 m c) (A1 m c) (A2 m c) (A3 m c) (A4 m c) (A7 m c) (A8 m c)) :=
  (dats m 0 c).arrAt_eq_of_cover 10 (boxArray (A0 m c) (A1 m c) (A2 m c) (A3 m c) (A4 m c) (A7 m c) (A8 m c)) (fun t hf => flushed10_eq m c t hf) (fun j => cover10 j)

/-! ## The run, read -/

/-- Every weakly fair execution of the kernel's program terminates with its two results at the class-probability and
    box-regression arrays of the arguments, and the arguments unchanged. -/
theorem run : θ_run defs (onTc (τ := τ) (main (F := Ideal))) ⟨m, fun _ => 0, ρ⟩ fun r => ∀ c : Dev nD,
      r.2.mem ((c : Thread nD τ).loc main_v4_0) = (classArray (A0 m c) (A1 m c) (A2 m c) (A3 m c) (A4 m c) (A5 m c) (A6 m c))
      ∧ r.2.mem ((c : Thread nD τ).loc main_v4_1) = (boxArray (A0 m c) (A1 m c) (A2 m c) (A3 m c) (A4 m c) (A7 m c) (A8 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.Blocks

end
-- ==== Proof.RefRows.lean ====
/-
  The reference, row by row.

  Each stage of the reference is read at an entry `(R, q)`: a matrix product as the sum over the contracted
  coordinate, a bias through its two broadcasts as the bias at the column, the rectifier as the maximum with zero, the
  softmax's row maximum (taken once more against `-∞`, which changes nothing) and row sum through their broadcasts.
  Read this way the reference's two results are the box head's class-probability and box-regression arrays.
-/
import proofs.«171640_g33277406609979_cont_8to1_b_945_3_alg».proof.Proof.Gen.ReferenceIdeal.Read
import proofs.«171640_g33277406609979_cont_8to1_b_945_3_alg».proof.Proof.Spec

noncomputable section

namespace Cert.ReferenceIdeal.Rows

open Cert.ReferenceIdeal Cert.ReferenceIdeal.Gen Cert.ReferenceIdeal.Read Idealize.ShloMosaic Idealize.ShloMosaic.ValueIdx DenseSoftmax BoxHead

/-! ## Where each stage reads its operands -/

theorem lidx_v0 (R : Fin 5000) (j : Fin 1024) (k : Fin 12544) : lidx_main_v0 (ix2 R j) k = ix2 R k := by
  funext a; match a with | ⟨0, _⟩ => rfl | ⟨1, _⟩ => rfl
theorem ridx_v0 (R : Fin 5000) (j : Fin 1024) (k : Fin 12544) : ridx_main_v0 (ix2 R j) k = ix2 k j := by
  funext a; match a with | ⟨0, _⟩ => rfl | ⟨1, _⟩ => rfl
theorem lidx_v5 (R : Fin 5000) (j : Fin 1024) (k : Fin 1024) : lidx_main_v5 (ix2 R j) k = ix2 R k := by
  funext a; match a with | ⟨0, _⟩ => rfl | ⟨1, _⟩ => rfl
theorem ridx_v5 (R : Fin 5000) (j : Fin 1024) (k : Fin 1024) : ridx_main_v5 (ix2 R j) k = ix2 k j := by
  funext a; match a with | ⟨0, _⟩ => rfl | ⟨1, _⟩ => rfl
theorem lidx_v10 (R : Fin 5000) (j : Fin 4) (k : Fin 1024) : lidx_main_v10 (ix2 R j) k = ix2 R k := by
  funext a; match a with | ⟨0, _⟩ => rfl | ⟨1, _⟩ => rfl
theorem ridx_v10 (R : Fin 5000) (j : Fin 4) (k : Fin 1024) : ridx_main_v10 (ix2 R j) k = ix2 k j := by
  funext a; match a with | ⟨0, _⟩ => rfl | ⟨1, _⟩ => rfl
theorem lidx_v25 (R : Fin 5000) (j : Fin 12) (k : Fin 1024) : lidx_main_v25 (ix2 R j) k = ix2 R k := by
  funext a; match a with | ⟨0, _⟩ => rfl | ⟨1, _⟩ => rfl
theorem ridx_v25 (R : Fin 5000) (j : Fin 12) (k : Fin 1024) : ridx_main_v25 (ix2 R j) k = ix2 k j := by
  funext a; match a with | ⟨0, _⟩ => rfl | ⟨1, _⟩ => rfl
theorem idx_b1 (R : Fin 5000) (j : Fin 1024) : idx_main_v1 (idx_main_v2 (ix2 R j)) = ix1 j := by
  funext a; match a with | ⟨0, _⟩ => rfl
theorem idx_b2 (R : Fin 5000) (j : Fin 1024) : idx_main_v6 (idx_main_v7 (ix2 R j)) = ix1 j := by
  funext a; match a with | ⟨0, _⟩ => rfl
theorem idx_b3 (R : Fin 5000) (j : Fin 4) : idx_main_v11 (idx_main_v12 (ix2 R j)) = ix1 j := by
  funext a; match a with | ⟨0, _⟩ => rfl
theorem idx_b4 (R : Fin 5000) (j : Fin 12) : idx_main_v26 (idx_main_v27 (ix2 R j)) = ix1 j := by
  funext a; match a with | ⟨0, _⟩ => rfl
theorem idx_col_max (R : Fin 5000) (q : Fin 4) : idx_main_v17 (idx_main_v18 (ix2 R q)) = ix1 R := by
  funext a; match a with | ⟨0, _⟩ => rfl
theorem idx_col_sum (R : Fin 5000) (q : Fin 4) : idx_main_v22 (idx_main_v23 (ix2 R q)) = ix1 R := by
  funext a; match a with | ⟨0, _⟩ => rfl
theorem idx_sum (R : Fin 5000) (k : Fin 4) : idx_main_v21 (ix1 R) k = ix2 R k := by
  funext a; match a with | ⟨0, _⟩ => rfl | ⟨1, _⟩ => rfl

/-! ## The layers -/

/-- The first hidden activation at `(R, j)`. -/
theorem hidden1_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (R : Fin 5000) (j : Fin 1024) :
    val_main_v4 (F := Ideal) x0 x1 x2 (ix2 R j) = hidden1 (firstRow x0 x1 R) (fun c => x2 (ix1 c)) j := by
  rw [val_main_v4_apply, val_main_v3_apply, val_main_v0_apply, val_main_v2_apply, val_main_v1_apply,
    val_main_call0_v0_apply, val_main_call0_cst_apply, idx_b1]
  simp only [lidx_v0, ridx_v0]
  rfl

/-- The second hidden activation at `(R, c)`. -/
theorem hidden2_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (R : Fin 5000) (c : Fin 1024) :
    val_main_v9 (F := Ideal) x0 x1 x2 x3 x4 (ix2 R c)
      = hidden2 (firstRow x0 x1 R) (fun c => x2 (ix1 c)) x3 (fun c => x4 (ix1 c)) c := by
  rw [val_main_v9_apply, val_main_v8_apply, val_main_v5_apply, val_main_v7_apply, val_main_v6_apply,
    val_main_call1_v0_apply, val_main_call1_cst_apply, idx_b2]
  simp only [lidx_v5, ridx_v5, hidden1_at]
  rfl

/-- The class scores at `(R, q)`. -/
theorem scores_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal)) (R : Fin 5000) (q : Fin 4) :
    val_main_v13 (F := Ideal) x0 x1 x2 x3 x4 x5 x6 (ix2 R q)
      = dense (hidden2 (firstRow x0 x1 R) (fun c => x2 (ix1 c)) x3 (fun c => x4 (ix1 c))) x5 (fun q => x6 (ix1 q)) q := by
  rw [val_main_v13_apply, val_main_v10_apply, val_main_v12_apply, val_main_v11_apply, idx_b3]
  simp only [lidx_v10, ridx_v10, hidden2_at]
  rfl

/-- The row maximum the softmax subtracts, at row `R`: the maximum of the row's scores. -/
theorem rowMax_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal)) (R : Fin 5000) :
    val_main_v16 (F := Ideal) x0 x1 x2 x3 x4 x5 x6 (ix1 R)
      = rowMax (fun q => val_main_v13 (F := Ideal) x0 x1 x2 x3 x4 x5 x6 (ix2 R q)) := by
  have h : Shape.Reduces ⟨2, ![5000, 4]⟩ [1] ⟨1, ![5000]⟩ :=
    ⟨reducesTo_S5000x4_S5000_d1.1, Nat.one_pos, reducesTo_S5000x4_S5000_d1.2⟩
  rw [val_main_v16_apply, val_main_v15_apply, val_main_cst_0_apply]
  show max (Ideal.ofBits .f32 0xFF800000#32) (val_main_v14 (F := Ideal) x0 x1 x2 x3 x4 x5 x6 (ix1 R)) = _
  rw [Gcn.Lib.ofBits_neg_inf_f32, max_bot_left]
  unfold val_main_v14
  refine (Gcn.Lib.hostRowMax_apply _ _ reducesTo_S5000x4_S5000_d1 h h_S_ R).trans ?_
  show (Finset.univ : Finset (Fin 4)).fold max (Ideal.ofBits .f32 0xFF800000#32) _ = _
  rw [Gcn.Lib.ofBits_neg_inf_f32]
  rfl

/-- The class probabilities at `(R, q)`. -/
theorem classProb_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal)) (R : Fin 5000) (q : Fin 4) :
    val_main_v24 (F := Ideal) x0 x1 x2 x3 x4 x5 x6 (ix2 R q)
      = classProb (firstRow x0 x1 R) (fun c => x2 (ix1 c)) x3 (fun c => x4 (ix1 c)) x5 (fun q => x6 (ix1 q)) q := by
  have hexp : ∀ q' : Fin 4, val_main_v20 (F := Ideal) x0 x1 x2 x3 x4 x5 x6 (ix2 R q')
      = Ideal.exp (val_main_v13 (F := Ideal) x0 x1 x2 x3 x4 x5 x6 (ix2 R q')
          - rowMax (fun q => val_main_v13 (F := Ideal) x0 x1 x2 x3 x4 x5 x6 (ix2 R q))) := fun q' => by
    rw [val_main_v20_apply, val_main_v19_apply, val_main_v18_apply, val_main_v17_apply, idx_col_max, rowMax_at]
    rfl
  rw [val_main_v24_apply, val_main_v23_apply, val_main_v22_apply, idx_col_sum, val_main_v21_apply,
    val_main_cst_1_apply]
  simp only [idx_sum, hexp, scores_at]
  show Ideal.div _ (Ideal.ofBits .f32 0x00000000#32 + _) = _
  rw [Ideal.ofBits_zero_f32, zero_add]
  rfl

/-- The box regression at `(R, q)`. -/
theorem boxOut_at (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x7 : (⟨S1024x12, .f32⟩ : BufTy).Contents (Elt Ideal)) (x8 : (⟨S12, .f32⟩ : BufTy).Contents (Elt Ideal)) (R : Fin 5000) (q : Fin 12) :
    val_main_v28 (F := Ideal) x0 x1 x2 x3 x4 x7 x8 (ix2 R q)
      = boxOut (firstRow x0 x1 R) (fun c => x2 (ix1 c)) x3 (fun c => x4 (ix1 c)) x7 (fun q => x8 (ix1 q)) q := by
  rw [val_main_v28_apply, val_main_v25_apply, val_main_v27_apply, val_main_v26_apply, idx_b4]
  simp only [lidx_v25, ridx_v25, hidden2_at]
  rfl

/-! ## The two results -/

/-- The reference's first result is the class-probability array of its arguments. -/
theorem class_eq (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal)) :
    val_main_v24 (F := Ideal) x0 x1 x2 x3 x4 x5 x6 = classArray x0 x1 x2 x3 x4 x5 x6 := by
  funext i
  obtain ⟨R, q, rfl⟩ : ∃ (R : Fin 5000) (q : Fin 4), i = ix2 R q := ⟨i 0, i 1, eq_ix2 i⟩
  rw [classProb_at, classArray_apply]

/-- The reference's second result is the box-regression array of its arguments. -/
theorem box_eq (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x7 : (⟨S1024x12, .f32⟩ : BufTy).Contents (Elt Ideal)) (x8 : (⟨S12, .f32⟩ : BufTy).Contents (Elt Ideal)) :
    val_main_v28 (F := Ideal) x0 x1 x2 x3 x4 x7 x8 = boxArray x0 x1 x2 x3 x4 x7 x8 := by
  funext i
  obtain ⟨R, q, rfl⟩ : ∃ (R : Fin 5000) (q : Fin 12), i = ix2 R q := ⟨i 0, i 1, eq_ix2 i⟩
  rw [boxOut_at, boxArray_apply]

end Cert.ReferenceIdeal.Rows

end
-- ==== Proof.lean ====
/-
  A four-layer box head — two rectified dense layers, then a softmax class head and a linear box head — computed by
  one fused kernel against plain matrix products, equal on the extended reals.

  The kernel works on 5 row blocks of 1000 rows and contracts the 12544 features in 7 steps of 1792, carrying an
  accumulator; at a row block's last step it finishes the remaining layers on the resident rows. The reference
  multiplies whole matrices. On the extended reals a change of float format is the identity, the matrix unit
  accumulating into zero and the host's contraction are the same sum, and a sum of seven blocks of 1792 products is
  the sum of all 12544 in any grouping; the rectifiers, the softmax (shifted by the row maximum, which the reference
  takes once more against -∞) and the biases are the same functions on both sides. Only associativity and
  commutativity of addition join the two programs, so the finiteness of the inputs is never used.

  Both programs' results are shown to be the same two functions of the nine arguments (Spec.lean): the kernel's
  through what each grid point leaves in its buffers (Pieces.lean, Payloads.lean, Blocks.lean), the reference's one
  operation at a time (RefRows.lean). No operation of the kernel is rewritten in its idealization, which is the
  kernel's own text read on the extended reals.
-/
import proofs.«171640_g33277406609979_cont_8to1_b_945_3_alg».proof.Defs
import proofs.«171640_g33277406609979_cont_8to1_b_945_3_alg».proof.Proof.Gen.Kernel
import proofs.«171640_g33277406609979_cont_8to1_b_945_3_alg».proof.Proof.Gen.Kernel.Skeleton
import proofs.«171640_g33277406609979_cont_8to1_b_945_3_alg».proof.Proof.Gen.Kernel.Launch
import proofs.«171640_g33277406609979_cont_8to1_b_945_3_alg».proof.Proof.Gen.Kernel.Points
import proofs.«171640_g33277406609979_cont_8to1_b_945_3_alg».proof.Proof.Gen.Kernel.Frame
import proofs.«171640_g33277406609979_cont_8to1_b_945_3_alg».proof.Proof.Gen.KernelIdeal
import proofs.«171640_g33277406609979_cont_8to1_b_945_3_alg».proof.Proof.Gen.KernelIdeal.Skeleton
import proofs.«171640_g33277406609979_cont_8to1_b_945_3_alg».proof.Proof.Gen.KernelIdeal.Launch
import proofs.«171640_g33277406609979_cont_8to1_b_945_3_alg».proof.Proof.Gen.KernelIdeal.Points
import proofs.«171640_g33277406609979_cont_8to1_b_945_3_alg».proof.Proof.Gen.KernelIdeal.Frame
import proofs.«171640_g33277406609979_cont_8to1_b_945_3_alg».proof.Proof.Gen.ReferenceIdeal
import proofs.«171640_g33277406609979_cont_8to1_b_945_3_alg».proof.Proof.Gen.Pre_finite_inputs
import proofs.«171640_g33277406609979_cont_8to1_b_945_3_alg».proof.Proof.Gen.KernelIdeal.Value
import proofs.«171640_g33277406609979_cont_8to1_b_945_3_alg».proof.Proof.Gen.ReferenceIdeal.Run
import proofs.«171640_g33277406609979_cont_8to1_b_945_3_alg».proof.Proof.Gen.ReferenceIdeal.Read
import proofs.«171640_g33277406609979_cont_8to1_b_945_3_alg».proof.Proof.Blocks
import proofs.«171640_g33277406609979_cont_8to1_b_945_3_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals both programs end with the class-probability and box-regression arrays of the arguments. -/
theorem algebraic : Cert.algebraic_KernelIdeal_ReferenceIdeal := by
  intro m ρ m' ρ' _ hagree
  refine ⟨fun c => BoxHead.classArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => BoxHead.boxArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v24_eq, Cert.ReferenceIdeal.Rows.class_eq, (hagree c).1,
      (hagree c).2.1, (hagree c).2.2.1, (hagree c).2.2.2.1, (hagree c).2.2.2.2.1, (hagree c).2.2.2.2.2.1,
      (hagree c).2.2.2.2.2.2.1]
  · rw [(h c).2.1, Cert.ReferenceIdeal.Read.val_main_v28_eq, Cert.ReferenceIdeal.Rows.box_eq, (hagree c).1,
      (hagree c).2.1, (hagree c).2.2.1, (hagree c).2.2.2.1, (hagree c).2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
